-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x1 : Shape := ⟨2, ![128, 1]⟩
abbrev S1x2 : Shape := ⟨2, ![1, 2]⟩

abbrev nBuf : Space → Nat
  | .hbm => 172
  | .vmem => 24
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S_, .f32⟩
  | 92 => ⟨S800000, .f32⟩
  | 93 => ⟨S50000, .f32⟩
  | 94 => ⟨S_, .f32⟩
  | 95 => ⟨S50000, .f32⟩
  | 96 => ⟨S50000, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x1, .f32⟩
  | 127 => ⟨S800000x128, .f32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S50000x128, .f32⟩
  | 12 => ⟨S50000, .f32⟩
  | 13 => ⟨S50000x1, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S_, .f32⟩
  | 20 => ⟨S128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S_, .f32⟩
  | 30 => ⟨S50000, .f32⟩
  | 31 => ⟨S128, .f32⟩
  | 32 => ⟨S_, .f32⟩
  | 33 => ⟨S128x128, .f32⟩
  | 34 => ⟨S50000x1, .i32⟩
  | 35 => ⟨S128x128, .f32⟩
  | 36 => ⟨S_, .f32⟩
  | 37 => ⟨S128, .f32⟩
  | 38 => ⟨S128, .f32⟩
  | 39 => ⟨S128x1, .f32⟩
  | 40 => ⟨S128x128, .f32⟩
  | 41 => ⟨S128x128, .f32⟩
  | 42 => ⟨S1x2, .f32⟩
  | 43 => ⟨S128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x2, .f32⟩
  | .local _ .vmem, ⟨22, _⟩ => ⟨S1x2, .f32⟩
  | .local _ .vmem, ⟨23, _⟩ => ⟨S128x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_c_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_21 : Ref sig .tc := ⟨.hbm, 117, rfl⟩
abbrev main_v85 : Ref sig .tc := ⟨.hbm, 118, rfl⟩
abbrev main_v86 : Ref sig .tc := ⟨.hbm, 119, rfl⟩
abbrev main_c_22 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_c_24 : Ref sig .tc := ⟨.hbm, 131, rfl⟩
abbrev main_v96 : Ref sig .tc := ⟨.hbm, 132, rfl⟩
abbrev main_v97 : Ref sig .tc := ⟨.hbm, 133, rfl⟩
abbrev main_c_25 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_26 : Ref sig .tc := ⟨.hbm, 147, rfl⟩
abbrev main_v110 : Ref sig .tc := ⟨.hbm, 148, rfl⟩
abbrev main_c_27 : Ref sig .tc := ⟨.hbm, 149, rfl⟩
abbrev main_v111 : Ref sig .tc := ⟨.hbm, 150, rfl⟩
abbrev main_v112 : Ref sig .tc := ⟨.hbm, 151, rfl⟩
abbrev main_c_28 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_29 : Ref sig .tc := ⟨.hbm, 157, rfl⟩
abbrev main_v117 : Ref sig .tc := ⟨.hbm, 158, rfl⟩
abbrev main_v118 : Ref sig .tc := ⟨.hbm, 159, rfl⟩
abbrev main_cst_30 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_31 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S2_S1x2 : S2.ShapeCasts S1x2
  shapeCasts_S128x128_S128x128 : S128x128.ShapeCasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v107) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v108) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v109) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v126) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v127) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v128) S128x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x1 : Shape := ⟨2, ![128, 1]⟩
abbrev S1x2 : Shape := ⟨2, ![1, 2]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x2, .f32⟩
  | 8 => ⟨S2, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S_, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S_, .f32⟩
  | 25 => ⟨S800000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S_, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S_, .f32⟩
  | 96 => ⟨S800000, .f32⟩
  | 97 => ⟨S50000, .f32⟩
  | 98 => ⟨S_, .f32⟩
  | 99 => ⟨S50000, .f32⟩
  | 100 => ⟨S50000, .f32⟩
  | 101 => ⟨S50000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S800000x1, .f32⟩
  | 3 => ⟨S800000x128, .f32⟩
  | 4 => ⟨S800000x128, .f32⟩
  | 5 => ⟨S_, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S50000x128, .f32⟩
  | 16 => ⟨S50000, .f32⟩
  | 17 => ⟨S50000x1, .f32⟩
  | 18 => ⟨S50000x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S_, .f32⟩
  | 35 => ⟨S50000, .f32⟩
  | 36 => ⟨S128, .f32⟩
  | 37 => ⟨S_, .f32⟩
  | 38 => ⟨S128x128, .f32⟩
  | 39 => ⟨S50000x1, .i32⟩
  | 40 => ⟨S128x128, .f32⟩
  | 41 => ⟨S_, .f32⟩
  | 42 => ⟨S128, .f32⟩
  | 43 => ⟨S128, .f32⟩
  | 44 => ⟨S128x1, .f32⟩
  | 45 => ⟨S128x128, .f32⟩
  | 46 => ⟨S128x128, .f32⟩
  | 47 => ⟨S128x2, .f32⟩
  | 48 => ⟨S1x2, .f32⟩
  | 49 => ⟨S128x2, .f32⟩
  | 50 => ⟨S128x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_c_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_c_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_21 : Ref sig .tc := ⟨.hbm, 121, rfl⟩
abbrev main_v87 : Ref sig .tc := ⟨.hbm, 122, rfl⟩
abbrev main_v88 : Ref sig .tc := ⟨.hbm, 123, rfl⟩
abbrev main_c_22 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_c_24 : Ref sig .tc := ⟨.hbm, 135, rfl⟩
abbrev main_v98 : Ref sig .tc := ⟨.hbm, 136, rfl⟩
abbrev main_v99 : Ref sig .tc := ⟨.hbm, 137, rfl⟩
abbrev main_c_25 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_26 : Ref sig .tc := ⟨.hbm, 152, rfl⟩
abbrev main_v113 : Ref sig .tc := ⟨.hbm, 153, rfl⟩
abbrev main_c_27 : Ref sig .tc := ⟨.hbm, 154, rfl⟩
abbrev main_v114 : Ref sig .tc := ⟨.hbm, 155, rfl⟩
abbrev main_v115 : Ref sig .tc := ⟨.hbm, 156, rfl⟩
abbrev main_c_28 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_29 : Ref sig .tc := ⟨.hbm, 162, rfl⟩
abbrev main_v120 : Ref sig .tc := ⟨.hbm, 163, rfl⟩
abbrev main_v121 : Ref sig .tc := ⟨.hbm, 164, rfl⟩
abbrev main_cst_30 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_31 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x2_S128x2_1_0_0_1_n_n_wf : DotDims.WF S128x128 S128x2 S128x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«171469_j11089605559135_1_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.Spec.lean ====
/-
  A two-layer graph convolution with mean pooling and a linear head, as ONE function of the argument arrays.

  The network is
      h₁  = relu (Â (X W₁) + b₁)          h₂ = Â (h₁ W₂) + b₂
      out = (pool h₂) W_c + b_c
  where `Â H` is the symmetric-normalised neighbourhood sum with self loops — for node v,
  `Σ_{e : dst e = v} H[src e] · d[src e] · d[dst e]  +  H[v] · d[v]²` with `d = (1 + in-degree)^(-1/2)` — and
  `pool` divides each graph's sum of node rows by its node count (at least 1).

  The neighbourhood sum and the pooling are gathers and scatter-adds over index arrays; they are named here as the
  compositions of host operations both programs spell them with (`neighbourSum`, `meanPool`) and are never opened:
  the two programs differ only in how the three dense products and the bias rows are written, and those are read
  entry by entry (`matProd`, `rowBiasMax`, `rowBias`).
-/
import proofs.«171469_j11089605559135_1_alg».proof.Proof.Gen.KernelIdeal
import proofs.«171469_j11089605559135_1_alg».proof.Proof.LibMatProd
import proofs.«171469_j11089605559135_1_alg».proof.Proof.LibRowBlock

noncomputable section

namespace Cert.GraphConv

open Idealize.ShloMosaic Idealize.ShloMosaic.ValueIdx Cert.KernelIdeal Cert.KernelIdeal.Facts₀ Cert.Linear

variable {F : FTy → Type} [FloatOps F]

/-- An array of 32-bit integers of shape `S`. -/
abbrev IArr (F : FTy → Type) [FloatOps F] (S : Shape) : Type := (⟨S, .i32⟩ : BufTy).Contents (Elt F)
/-- An array of floats of shape `S`. -/
abbrev FArr (F : FTy → Type) [FloatOps F] (S : Shape) : Type := (⟨S, .f32⟩ : BufTy).Contents (Elt F)

/-! ## The edge list's two rows -/

/-- Row 0 of the 2 × E edge array: each edge's source node. -/
def sources (e : IArr F S2x800000) : IArr F S800000 :=
  shapeCast S800000 (extractStridedSlice S1x800000 ![0, 0] e slices_S2x800000_S1x800000_0_0) shapeCasts_S1x800000_S800000

/-- Row 1 of the 2 × E edge array: each edge's target node. -/
def targets (e : IArr F S2x800000) : IArr F S800000 :=
  shapeCast S800000 (extractStridedSlice S1x800000 ![1, 0] e slices_S2x800000_S1x800000_1_0) shapeCasts_S1x800000_S800000

/-! ## The neighbourhood sum -/

/-- A node index per edge as a column of start indices, a negative index first wrapped by the node count. -/
def nodeColumn (i : IArr F S800000) : IArr F S800000x1 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- `d = (1 + in-degree)^(-1/2)`, per node: ones scattered onto the edges' targets, plus one, inverse square root. -/
def invSqrtDegree (dst : IArr F S800000) : FArr F S50000 :=
  Host.rsqrt
    (addf
      (Host.scatterAdd scatter_S50000_S800000x1_S800000_n_0_0_1
        (broadcastInDim S50000 ![] bcast_S_S50000 (constant S_ .f32 0x00000000#32))
        (nodeColumn dst)
        (broadcastInDim S800000 ![] bcast_S_S800000 (constant S_ .f32 0x3F800000#32)))
      (broadcastInDim S50000 ![] bcast_S_S50000 (constant S_ .f32 0x3F800000#32)))

/-- The weight of an edge: `d[src] · d[dst]`. -/
def edgeWeight (src dst : IArr F S800000) : FArr F S800000 :=
  mulf (Host.gather gather_S50000_S800000x1_S800000_n_0_n_n_0_1_1 (invSqrtDegree dst) (nodeColumn src))
    (Host.gather gather_S50000_S800000x1_S800000_n_0_n_n_0_1_1 (invSqrtDegree dst) (nodeColumn dst))

/-- The message of an edge: its source's feature row times the edge's weight. -/
def messages (h : FArr F S50000x128) (src dst : IArr F S800000) : FArr F S800000x128 :=
  mulf (Host.gather gather_S50000x128_S800000x1_S800000x128_1_0_n_n_0_1_1128 h (nodeColumn src))
    (broadcastInDim S800000x128 ![0, 1] bcast_S800000x1_S800000x128_0_1
      (broadcastInDim S800000x1 ![0] bcast_S800000_S800000x1_0 (edgeWeight src dst)))

/-- `Â H`: the messages summed onto their targets, plus each node's own row times `d²`. -/
def neighbourSum (h : FArr F S50000x128) (src dst : IArr F S800000) : FArr F S50000x128 :=
  addf
    (Host.scatterAdd scatter_S50000x128_S800000x1_S800000x128_1_0_0_1
      (broadcastInDim S50000x128 ![] bcast_S_S50000x128 (constant S_ .f32 0x00000000#32))
      (nodeColumn dst)
      (messages h src dst))
    (mulf h
      (broadcastInDim S50000x128 ![0, 1] bcast_S50000x1_S50000x128_0_1
        (broadcastInDim S50000x1 ![0] bcast_S50000_S50000x1_0 (mulf (invSqrtDegree dst) (invSqrtDegree dst)))))

/-! ## Mean pooling over graphs -/

/-- The number of nodes of each graph: ones scattered onto the (wrapped) graph ids. -/
def graphSizes (batch : IArr F S50000) : FArr F S128 :=
  Host.scatterAdd scatter_S128_S50000x1_S50000_n_0_0_1
    (broadcastInDim S128 ![] bcast_S_S128 (constant S_ .f32 0x00000000#32))
    (broadcastInDim S50000x1 ![0] bcast_S50000_S50000x1_0
      (select (cmpi .slt batch (broadcastInDim S50000 ![] bcast_S_S50000 (constantI S_ 32 0#32)))
        (addi batch (broadcastInDim S50000 ![] bcast_S_S50000 (constantI S_ 32 128#32))) batch))
    (broadcastInDim S50000 ![] bcast_S_S50000 (constant S_ .f32 0x3F800000#32))

/-- Each graph's sum of node rows divided by `max (its node count) 1`. -/
def meanPool (h : FArr F S50000x128) (batch : IArr F S50000) : FArr F S128x128 :=
  Host.divf
    (Host.scatterAdd scatter_S128x128_S50000x1_S50000x128_1_0_0_1
      (broadcastInDim S128x128 ![] bcast_S_S128x128 (constant S_ .f32 0x00000000#32))
      (broadcastInDim S50000x1 ![0] bcast_S50000_S50000x1_0 batch)
      h)
    (broadcastInDim S128x128 ![0, 1] bcast_S128x1_S128x128_0_1
      (broadcastInDim S128x1 ![0] bcast_S128_S128x1_0
        (maximumf (graphSizes batch) (broadcastInDim S128 ![] bcast_S_S128 (constant S_ .f32 0x3F800000#32)))))

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- The vector operations `x + broadcast b` over an `R × K` block and a `1 × K` row (each first cast to its own
    shape) are `rowBias x b`. -/
theorem rowBias_of_vector_ops {R K : Nat} (x : FVec Ideal (Mat R K) .f32) (b : FVec Ideal (Mat 1 K) .f32)
    (h1 : (Mat R K).ShapeCasts (Mat R K)) (h2 : (Mat 1 K).ShapeCasts (Mat 1 K)) (h3 : (Mat 1 K).Broadcasts (Mat R K)) :
    addf (shapeCast (Mat R K) x h1) (broadcastTo (Mat R K) (shapeCast (Mat 1 K) b h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (⟨1, ![K]⟩ : Shape) .f32)
    (h1 : (⟨1, ![K]⟩ : Shape).BroadcastsInDim (Mat 1 K) ![1]) (h2 : (Mat 1 K).BroadcastsInDim (Mat R K) ![0, 1])
    (h4 : (⟨1, ![K]⟩ : Shape).ShapeCasts (Mat 1 K)) :
    addf A (broadcastInDim (Mat R K) ![0, 1] h2 (broadcastInDim (Mat 1 K) ![1] h1 b))
      = rowBias A (shapeCast (Mat 1 K) b h4) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  show A (ix2 p q) + broadcastInDim (Mat R K) ![0, 1] h2 (broadcastInDim (Mat 1 K) ![1] h1 b) (ix2 p q)
    = A (ix2 p q) + shapeCast (Mat 1 K) b h4 (ix2 (0 : Fin 1) q)
  rw [e2, e1, shapeCast_a_1a_apply b h4 0 q]

/-! ## The network -/

/-- A length-`K` bias vector as one row. -/
abbrev biasRow128 (b : FArr Ideal S128) : FArr Ideal S1x128 := shapeCast S1x128 b shapeCasts_S128_S1x128
abbrev biasRow2 (b : FArr Ideal S2) : FArr Ideal S1x2 := shapeCast S1x2 b shapeCasts_S2_S1x2

/-- The hidden layer `relu (Â (X W₁) + b₁)`. -/
def hidden (x : FArr Ideal S50000x128) (e : IArr Ideal S2x800000) (W1 : FArr Ideal S128x128) (b1 : FArr Ideal S128) :
    FArr Ideal S50000x128 :=
  rowBiasMax (neighbourSum (F := Ideal) (matProd x W1) (sources e) (targets e)) (biasRow128 b1)
    (Ideal.ofBits .f32 0x00000000#32)

/-- The second layer `Â (h₁ W₂) + b₂`. -/
def second (h1 : FArr Ideal S50000x128) (e : IArr Ideal S2x800000) (W2 : FArr Ideal S128x128) (b2 : FArr Ideal S128) :
    FArr Ideal S50000x128 :=
  rowBias (neighbourSum (F := Ideal) (matProd h1 W2) (sources e) (targets e)) (biasRow128 b2)

/-- The whole network's 128 × 2 result. -/
def network (x : FArr Ideal S50000x128) (e : IArr Ideal S2x800000) (batch : IArr Ideal S50000)
    (W1 : FArr Ideal S128x128) (b1 : FArr Ideal S128) (W2 : FArr Ideal S128x128) (b2 : FArr Ideal S128)
    (Wc : FArr Ideal S128x2) (bc : FArr Ideal S2) : FArr Ideal S128x2 :=
  rowBias (matProd (meanPool (F := Ideal) (second (hidden x e W1 b1) e W2 b2) batch) Wc) (biasRow2 bc)

end Cert.GraphConv

end
-- ==== Proof.KernelHost.lean ====
/-
  The kernel program's four stretches of host operations, each read as a function of the buffers it starts from.

  Between its five dense kernels the program computes on the host: first the edge list's two rows; then, twice, the
  neighbourhood sum of the features a kernel just produced (and the next bias vector laid out as a row); last the
  mean pooling (and the head's bias as a row). Each stretch is stated from ARBITRARY starting contents `V`: what it
  leaves in the buffer a later kernel reads is the named function (`sources`, `targets`, `neighbourSum`, `meanPool`,
  a reshape) of what `V` holds in the buffers the stretch reads, and a buffer the stretch does not write keeps
  `V`'s contents.
-/
import proofs.«171469_j11089605559135_1_alg».proof.Proof.Gen.KernelIdeal.Launch
import proofs.«171469_j11089605559135_1_alg».proof.Proof.Spec
import Idealize.ShloMosaic.Lib.StableHlo.Run

set_option maxRecDepth 16384

noncomputable section

namespace Cert.GraphConv.KernelHost

open Idealize.ShloMosaic Cert.KernelIdeal Cert.KernelIdeal.Gen Idealize.ShloMosaic.StableHlo Cert.GraphConv

variable {F : FTy → Type} [FloatOps F] (V : Valuation τ sig (Elt F))

/-! ## Stretch 0: the edge list's rows -/

theorem hostOps0_sources : after (hostOps0 (F := F)) V (Proc.devRef .tc main_v1) = sources (F := F) (V (Proc.devRef .tc main_arg1)) := by
  after_results
  rfl

theorem hostOps0_targets : after (hostOps0 (F := F)) V (Proc.devRef .tc main_v3) = targets (F := F) (V (Proc.devRef .tc main_arg1)) := by
  after_results
  rfl

theorem hostOps0_keeps_main_arg0 : after (hostOps0 (F := F)) V (Proc.devRef .tc main_arg0) = V (Proc.devRef .tc main_arg0) := by
  after_results_simp
theorem hostOps0_keeps_main_arg2 : after (hostOps0 (F := F)) V (Proc.devRef .tc main_arg2) = V (Proc.devRef .tc main_arg2) := by
  after_results_simp
theorem hostOps0_keeps_main_arg3 : after (hostOps0 (F := F)) V (Proc.devRef .tc main_arg3) = V (Proc.devRef .tc main_arg3) := by
  after_results_simp
theorem hostOps0_keeps_main_arg4 : after (hostOps0 (F := F)) V (Proc.devRef .tc main_arg4) = V (Proc.devRef .tc main_arg4) := by
  after_results_simp
theorem hostOps0_keeps_main_arg5 : after (hostOps0 (F := F)) V (Proc.devRef .tc main_arg5) = V (Proc.devRef .tc main_arg5) := by
  after_results_simp
theorem hostOps0_keeps_main_arg6 : after (hostOps0 (F := F)) V (Proc.devRef .tc main_arg6) = V (Proc.devRef .tc main_arg6) := by
  after_results_simp
theorem hostOps0_keeps_main_arg7 : after (hostOps0 (F := F)) V (Proc.devRef .tc main_arg7) = V (Proc.devRef .tc main_arg7) := by
  after_results_simp
theorem hostOps0_keeps_main_arg8 : after (hostOps0 (F := F)) V (Proc.devRef .tc main_arg8) = V (Proc.devRef .tc main_arg8) := by
  after_results_simp

/-! ## Stretch 1: the first neighbourhood sum, and the first bias as a row -/

set_option maxHeartbeats 4000000 in
theorem hostOps1_neighbourSum : after (hostOps1 (F := F)) V (Proc.devRef .tc main_v54)
    = neighbourSum (F := F) (V (Proc.devRef .tc main_v4)) (V (Proc.devRef .tc main_v1)) (V (Proc.devRef .tc main_v3)) := by
  after_results_simp
  rfl

set_option maxHeartbeats 4000000 in
theorem hostOps1_biasRow : after (hostOps1 (F := F)) V (Proc.devRef .tc main_v55)
    = shapeCast S1x128 (V (Proc.devRef .tc main_arg4)) shapeCasts_S128_S1x128 := by
  after_results_simp
  rfl

set_option maxHeartbeats 4000000 in
theorem hostOps1_keeps_main_arg2 : after (hostOps1 (F := F)) V (Proc.devRef .tc main_arg2) = V (Proc.devRef .tc main_arg2) := by
  after_results_simp
set_option maxHeartbeats 4000000 in
theorem hostOps1_keeps_main_arg5 : after (hostOps1 (F := F)) V (Proc.devRef .tc main_arg5) = V (Proc.devRef .tc main_arg5) := by
  after_results_simp
set_option maxHeartbeats 4000000 in
theorem hostOps1_keeps_main_arg6 : after (hostOps1 (F := F)) V (Proc.devRef .tc main_arg6) = V (Proc.devRef .tc main_arg6) := by
  after_results_simp
set_option maxHeartbeats 4000000 in
theorem hostOps1_keeps_main_arg7 : after (hostOps1 (F := F)) V (Proc.devRef .tc main_arg7) = V (Proc.devRef .tc main_arg7) := by
  after_results_simp
set_option maxHeartbeats 4000000 in
theorem hostOps1_keeps_main_arg8 : after (hostOps1 (F := F)) V (Proc.devRef .tc main_arg8) = V (Proc.devRef .tc main_arg8) := by
  after_results_simp
set_option maxHeartbeats 4000000 in
theorem hostOps1_keeps_main_v1 : after (hostOps1 (F := F)) V (Proc.devRef .tc main_v1) = V (Proc.devRef .tc main_v1) := by
  after_results_simp
set_option maxHeartbeats 4000000 in
theorem hostOps1_keeps_main_v3 : after (hostOps1 (F := F)) V (Proc.devRef .tc main_v3) = V (Proc.devRef .tc main_v3) := by
  after_results_simp

/-! ## Stretch 3: the second neighbourhood sum, and the second bias as a row -/

set_option maxHeartbeats 4000000 in
theorem hostOps3_neighbourSum : after (hostOps3 (F := F)) V (Proc.devRef .tc main_v107)
    = neighbourSum (F := F) (V (Proc.devRef .tc main_v57)) (V (Proc.devRef .tc main_v1)) (V (Proc.devRef .tc main_v3)) := by
  after_results_simp
  rfl

set_option maxHeartbeats 4000000 in
theorem hostOps3_biasRow : after (hostOps3 (F := F)) V (Proc.devRef .tc main_v108)
    = shapeCast S1x128 (V (Proc.devRef .tc main_arg6)) shapeCasts_S128_S1x128 := by
  after_results_simp
  rfl

set_option maxHeartbeats 4000000 in
theorem hostOps3_keeps_main_arg2 : after (hostOps3 (F := F)) V (Proc.devRef .tc main_arg2) = V (Proc.devRef .tc main_arg2) := by
  after_results_simp
set_option maxHeartbeats 4000000 in
theorem hostOps3_keeps_main_arg7 : after (hostOps3 (F := F)) V (Proc.devRef .tc main_arg7) = V (Proc.devRef .tc main_arg7) := by
  after_results_simp
set_option maxHeartbeats 4000000 in
theorem hostOps3_keeps_main_arg8 : after (hostOps3 (F := F)) V (Proc.devRef .tc main_arg8) = V (Proc.devRef .tc main_arg8) := by
  after_results_simp

/-! ## Stretch 4: the mean pooling, and the head's bias as a row -/

theorem hostOps4_meanPool : after (hostOps4 (F := F)) V (Proc.devRef .tc main_v126)
    = meanPool (F := F) (V (Proc.devRef .tc main_v109)) (V (Proc.devRef .tc main_arg2)) := by
  after_results_simp
  rfl

theorem hostOps4_biasRow : after (hostOps4 (F := F)) V (Proc.devRef .tc main_v127)
    = shapeCast S1x2 (V (Proc.devRef .tc main_arg8)) shapeCasts_S2_S1x2 := by
  after_results_simp
  rfl

theorem hostOps4_keeps_main_arg7 : after (hostOps4 (F := F)) V (Proc.devRef .tc main_arg7) = V (Proc.devRef .tc main_arg7) := by
  after_results_simp

end Cert.GraphConv.KernelHost

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«171469_j11089605559135_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.KernelRegions.lean ====
/-
  The five dense kernels, each read as ONE whole-array function of the arrays it finds.

  Kernels 0 and 2 multiply a 50000 × 128 feature matrix by a 128 × 128 weight matrix, 5000 rows per grid point;
  kernels 1 and 3 add a bias row to every row of such a matrix (kernel 1 then takes the maximum with zero), 5000 rows
  per grid point; kernel 4 is the head, one block: a 128 × 128 by 128 × 2 product plus a bias row. At the ideal
  values a change of float format is the identity and a product accumulated into zero is the plain sum of
  products, so each body is `matProd`, `rowBiasMax` or `rowBias` of its blocks. A row of a product, and a row of a
  biased matrix, depend on that row of the first operand only, so block `t` of the whole-array function is what
  grid point `t` computes from its blocks; the ten row blocks fill the array. Every statement is at ARBITRARY
  contents `V` of the buffers when the kernel is entered.
-/
import proofs.«171469_j11089605559135_1_alg».proof.Proof.Gen.KernelIdeal.Frame
import proofs.«171469_j11089605559135_1_alg».proof.Proof.Spec
import proofs.«171469_j11089605559135_1_alg».proof.Proof.LibDotLists
import Idealize.ShloMosaic.Lib.Pipeline.Value
import Idealize.ShloMosaic.Lib.ValueIdx
import Idealize.ShloMosaic.Lib.ValueLayout

set_option maxRecDepth 16384

noncomputable section

namespace Cert.GraphConv.KernelRegions

open Idealize.ShloMosaic Idealize.ShloMosaic.ValueIdx Idealize.ShloMosaic.TcCoe Idealize.SL.Sem
open Idealize.ShloMosaic.Pipeline (Dat)
open Cert.KernelIdeal Cert.KernelIdeal.Gen Cert.Linear Cert.GraphConv

theorem zeros2 : (![0, 0] : Fin 2 → Nat) = fun _ => 0 := funext fun a => by fin_cases a <;> rfl

/-! ## A biased row depends on its own row only -/

/-- Entry `j` of a block's biased rows (then maximum with `z`) is entry `i` of the whole matrix's as soon as the two
    matrix entries agree and the bias rows agree at the entry's column. -/
theorem rowBiasMax_of_entries {R r K : Nat} (A : (Mat R K).Idx → EReal) (B : (Mat 1 K).Idx → EReal)
    (a : (Mat r K).Idx → EReal) (b : (Mat 1 K).Idx → EReal) (z : EReal) (j : (Mat r K).Idx) (i : (Mat R K).Idx)
    (ha : a j = A i)
    (hb : b (ix2 (n0 := 1) (n1 := K) 0 (j 1)) = B (ix2 (n0 := 1) (n1 := K) 0 (i 1))) :
    rowBiasMax a b z j = rowBiasMax A B z i := by
  unfold rowBiasMax; rw [ha, hb]

/-- The same without the maximum. -/
theorem rowBias_of_entries {R r K : Nat} (A : (Mat R K).Idx → EReal) (B : (Mat 1 K).Idx → EReal)
    (a : (Mat r K).Idx → EReal) (b : (Mat 1 K).Idx → EReal) (j : (Mat r K).Idx) (i : (Mat R K).Idx)
    (ha : a j = A i)
    (hb : b (ix2 (n0 := 1) (n1 := K) 0 (j 1)) = B (ix2 (n0 := 1) (n1 := K) 0 (i 1))) :
    rowBias a b j = rowBias A B i := by
  unfold rowBias; rw [ha, hb]

/-! ## The kernel bodies at the ideal values -/

/-- Kernel 0's body: the block of rows times the weights (the two changes of format are the identity). -/
theorem k0_pay1_eq (x0 : Vec Ideal S5000x128 .f32) (x1 : Vec Ideal S128x128 .f32) : k0_pay1 x0 x1 = matProd x0 x1 :=
  matmul_zero_eq (contracts_of_lists dot_S5000x128_S128x128_S5000x128_1_0_0_1_n_n rfl rfl rfl rfl rfl rfl) none
    (truncf .bf16 x0 bitsLt_bf16_f32) (truncf .bf16 x1 bitsLt_bf16_f32)

/-- Kernel 2's body: the same product. -/
theorem k2_pay1_eq (x0 : Vec Ideal S5000x128 .f32) (x1 : Vec Ideal S128x128 .f32) : k2_pay1 x0 x1 = matProd x0 x1 := by
  have h : k2_pay1 x0 x1 = matProd (shapeCast S5000x128 x0 shapeCasts_S5000x128_S5000x128) x1 :=
    matmul_zero_eq (contracts_of_lists dot_S5000x128_S128x128_S5000x128_1_0_0_1_n_n rfl rfl rfl rfl rfl rfl) none
      (truncf .bf16 (shapeCast S5000x128 x0 shapeCasts_S5000x128_S5000x128) bitsLt_bf16_f32) (truncf .bf16 x1 bitsLt_bf16_f32)
  rw [h, shapeCast_self]

/-- Kernel 1's body: the bias row added to every row of the block, then the maximum with zero. -/
theorem k1_pay1_eq (x0 : Vec Ideal S5000x128 .f32) (x1 : Vec Ideal S1x128 .f32) :
    k1_pay1 x0 x1 = rowBiasMax x0 x1 (Ideal.ofBits .f32 0x00000000#32) :=
  rowBiasMax_of_vector_ops (R := 5000) (K := 128) x0 x1 (Ideal.ofBits .f32 0x00000000#32)
    shapeCasts_S5000x128_S5000x128 shapeCasts_S1x128_S1x128 broadcasts_S1x128_S5000x128

/-- Kernel 3's body: the bias row added to every row of the block. -/
theorem k3_pay1_eq (x0 : Vec Ideal S5000x128 .f32) (x1 : Vec Ideal S1x128 .f32) : k3_pay1 x0 x1 = rowBias x0 x1 :=
  rowBias_of_vector_ops (R := 5000) (K := 128) x0 x1
    shapeCasts_S5000x128_S5000x128 shapeCasts_S1x128_S1x128 broadcasts_S1x128_S5000x128

/-- Kernel 4's body: the pooled features times the head's weights, plus the head's bias row. -/
theorem k4_pay1_eq (x0 : Vec Ideal S128x128 .f32) (x1 : Vec Ideal S128x2 .f32) (x2 : Vec Ideal S1x2 .f32) :
    k4_pay1 x0 x1 x2 = rowBias (matProd x0 x1) x2 := by
  have h : k4_pay1 x0 x1 x2
      = addf (matProd (shapeCast S128x128 x0 shapeCasts_S128x128_S128x128) x1)
          (broadcastTo S128x2 (shapeCast S1x2 x2 shapeCasts_S1x2_S1x2) broadcasts_S1x2_S128x2) :=
    congrArg (fun y : FVec Ideal S128x2 .f32 => addf y (broadcastTo S128x2 (shapeCast S1x2 x2 shapeCasts_S1x2_S1x2) broadcasts_S1x2_S128x2))
      (matmul_zero_eq (contracts_of_lists dot_S128x128_S128x2_S128x2_1_0_0_1_n_n rfl rfl rfl rfl rfl rfl) none
        (truncf .bf16 (shapeCast S128x128 x0 shapeCasts_S128x128_S128x128) bitsLt_bf16_f32) (truncf .bf16 x1 bitsLt_bf16_f32))
  rw [h, shapeCast_self, shapeCast_self]
  funext i
  obtain ⟨p, q, rfl⟩ : ∃ (p : Fin 128) (q : Fin 2), i = ix2 p q := ⟨i 0, i 1, eq_ix2 i⟩
  show matProd x0 x1 (ix2 p q) + broadcastTo S128x2 x2 broadcasts_S1x2_S128x2 (ix2 p q) = matProd x0 x1 (ix2 p q) + x2 (ix2 (0 : Fin 1) q)
  rw [broadcastTo_1b_ab_apply x2 broadcasts_S1x2_S128x2 p q]

variable (V : (c : Dev nD) → (b : Ref sig .tc) → Buf (Elt Ideal) ((c : Thread nD τ).loc b))

/-! ## Kernel 0: `main_v4` from `main_arg0` and `main_arg3` -/

/-- Where each window's block sits at grid point `t`: the row blocks of the first operand and of the result move
    together, one block of 5000 rows per point; the second operand is one whole block. -/
theorem blockIndex0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole-array function. -/
theorem flushed0 (c : Dev nD) (t : Fin cfg0.N) :
    (dat0 V c).flushed 2 t = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  rw [k0_pay1_eq]
  obtain ⟨e0, e1, e2, e3, e4, e5⟩ := blockIndex0 t
  funext j
  show (matProd (iblk0 V c 0 t) (iblk0 V c 1 t)) j = (matProd (V c main_arg0) (V c main_arg3)) (((cfg0.win 2).blk t).view.emb j)
  refine matProd_of_rows (R := 50000) (r := 5000) (K := 128) (N := 128) (n := 128) _ _ _ _ j _ (fun q => ?_) (fun q => ?_)
  · show V c main_arg0 (((cfg0.win 0).blk t).view.emb (ix2 (j 0) q)) = V c main_arg0 (ix2 ((((cfg0.win 2).blk t).view.emb j) 0) q)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * q.val = q.val; omega
  · show V c main_arg3 (((cfg0.win 1).blk t).view.emb (ix2 q (j 1))) = V c main_arg3 (ix2 q ((((cfg0.win 2).blk t).view.emb j) 1))
    refine congrArg (V c main_arg3) (funext fun a => Fin.ext ?_)
    match a with
    | ⟨0, _⟩ => show win0_1.index t (0 : Fin 2) * 128 + 1 * q.val = q.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Row `r` of the result is written by point `r / 5000`: the ten blocks fill the array. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := blockIndex0 t
  have e4' : win0_2.index t (0 : Fin 2) = (i 0).val / 5000 := e4
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the kernel's ten points the result array holds the whole-array function of the operands' arrays as the
    kernel found them. -/
theorem result0 (c : Dev nD) : (dat0 V c).arrAt 2 cfg0.N = matProd (V c main_arg0) (V c main_arg3) :=
  (dat0 V c).arrAt_eq_of_cover 2 _ (fun t _ => flushed0 V c t) (covered0)

/-! ## Kernel 1: `main_v56` from `main_v54` and `main_v55` -/

/-- Where each window's block sits at grid point `t`: the row blocks of the first operand and of the result move
    together, one block of 5000 rows per point; the second operand is one whole block. -/
theorem blockIndex1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole-array function. -/
theorem flushed1 (c : Dev nD) (t : Fin cfg1.N) :
    (dat1 V c).flushed 2 t = ((cfg1.win 2).blk t).view.read (Elt Ideal) (rowBiasMax (V c main_v54) (V c main_v55) (Ideal.ofBits .f32 0x00000000#32)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S1x128) zeros2]
  rw [k1_pay1_eq]
  obtain ⟨e0, e1, e2, e3, e4, e5⟩ := blockIndex1 t
  funext j
  show (rowBiasMax (iblk1 V c 0 t) (iblk1 V c 1 t) (Ideal.ofBits .f32 0x00000000#32)) j = (rowBiasMax (V c main_v54) (V c main_v55) (Ideal.ofBits .f32 0x00000000#32)) (((cfg1.win 2).blk t).view.emb j)
  refine rowBiasMax_of_entries (R := 50000) (r := 5000) (K := 128) _ _ _ _ _ j _ ?_ ?_
  · show V c main_v54 (((cfg1.win 0).blk t).view.emb j) = V c main_v54 (((cfg1.win 2).blk t).view.emb j)
    refine congrArg (V c main_v54) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v55 (((cfg1.win 1).blk t).view.emb (ix2 (0 : Fin 1) (j 1))) = V c main_v55 (ix2 (0 : Fin 1) ((((cfg1.win 2).blk t).view.emb j) 1))
    refine congrArg (V c main_v55) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v56).slice (win1_2.rect t)).set ↔ _
  rw [View.set_slice_whole, Rect.mem_set_unit]
  exact Iff.rfl

/-- Row `r` of the result is written by point `r / 5000`: the ten blocks fill the array. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := blockIndex1 t
  have e4' : win1_2.index t (0 : Fin 2) = (i 0).val / 5000 := e4
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the kernel's ten points the result array holds the whole-array function of the operands' arrays as the
    kernel found them. -/
theorem result1 (c : Dev nD) : (dat1 V c).arrAt 2 cfg1.N = rowBiasMax (V c main_v54) (V c main_v55) (Ideal.ofBits .f32 0x00000000#32) :=
  (dat1 V c).arrAt_eq_of_cover 2 _ (fun t _ => flushed1 V c t) (covered1)

/-! ## Kernel 2: `main_v57` from `main_v56` and `main_arg5` -/

/-- Where each window's block sits at grid point `t`: the row blocks of the first operand and of the result move
    together, one block of 5000 rows per point; the second operand is one whole block. -/
theorem blockIndex2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the whole-array function. -/
theorem flushed2 (c : Dev nD) (t : Fin cfg2.N) :
    (dat2 V c).flushed 2 t = ((cfg2.win 2).blk t).view.read (Elt Ideal) (matProd (V c main_v56) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  rw [k2_pay1_eq]
  obtain ⟨e0, e1, e2, e3, e4, e5⟩ := blockIndex2 t
  funext j
  show (matProd (iblk2 V c 0 t) (iblk2 V c 1 t)) j = (matProd (V c main_v56) (V c main_arg5)) (((cfg2.win 2).blk t).view.emb j)
  refine matProd_of_rows (R := 50000) (r := 5000) (K := 128) (N := 128) (n := 128) _ _ _ _ j _ (fun q => ?_) (fun q => ?_)
  · show V c main_v56 (((cfg2.win 0).blk t).view.emb (ix2 (j 0) q)) = V c main_v56 (ix2 ((((cfg2.win 2).blk t).view.emb j) 0) q)
    refine congrArg (V c main_v56) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * q.val = q.val; omega
  · show V c main_arg5 (((cfg2.win 1).blk t).view.emb (ix2 q (j 1))) = V c main_arg5 (ix2 q ((((cfg2.win 2).blk t).view.emb j) 1))
    refine congrArg (V c main_arg5) (funext fun a => Fin.ext ?_)
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega

/-- An index of the result array is in point `t`'s block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v57).slice (win2_2.rect t)).set ↔ _
  rw [View.set_slice_whole, Rect.mem_set_unit]
  exact Iff.rfl

/-- Row `r` of the result is written by point `r / 5000`: the ten blocks fill the array. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := blockIndex2 t
  have e4' : win2_2.index t (0 : Fin 2) = (i 0).val / 5000 := e4
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the kernel's ten points the result array holds the whole-array function of the operands' arrays as the
    kernel found them. -/
theorem result2 (c : Dev nD) : (dat2 V c).arrAt 2 cfg2.N = matProd (V c main_v56) (V c main_arg5) :=
  (dat2 V c).arrAt_eq_of_cover 2 _ (fun t _ => flushed2 V c t) (covered2)

/-! ## Kernel 3: `main_v109` from `main_v107` and `main_v108` -/

/-- Where each window's block sits at grid point `t`: the row blocks of the first operand and of the result move
    together, one block of 5000 rows per point; the second operand is one whole block. -/
theorem blockIndex3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of the whole-array function. -/
theorem flushed3 (c : Dev nD) (t : Fin cfg3.N) :
    (dat3 V c).flushed 2 t = ((cfg3.win 2).blk t).view.read (Elt Ideal) (rowBias (V c main_v107) (V c main_v108)) := by
  show (cfg3.win 2).cut (grid3.coords t) ((dat3 V c).after 2 t) = _
  rw [after3_2]
  unfold out3_2
  rw [View.canon_unit_zero zeros2]
  simp only [View.ld_unit_zero (S := S5000x128) zeros2, View.ld_unit_zero (S := S1x128) zeros2]
  rw [k3_pay1_eq]
  obtain ⟨e0, e1, e2, e3, e4, e5⟩ := blockIndex3 t
  funext j
  show (rowBias (iblk3 V c 0 t) (iblk3 V c 1 t)) j = (rowBias (V c main_v107) (V c main_v108)) (((cfg3.win 2).blk t).view.emb j)
  refine rowBias_of_entries (R := 50000) (r := 5000) (K := 128) _ _ _ _ j _ ?_ ?_
  · show V c main_v107 (((cfg3.win 0).blk t).view.emb j) = V c main_v107 (((cfg3.win 2).blk t).view.emb j)
    refine congrArg (V c main_v107) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v108 (((cfg3.win 1).blk t).view.emb (ix2 (0 : Fin 1) (j 1))) = V c main_v108 (ix2 (0 : Fin 1) ((((cfg3.win 2).blk t).view.emb j) 1))
    refine congrArg (V c main_v108) (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the result array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v109).slice (win3_2.rect t)).set ↔ _
  rw [View.set_slice_whole, Rect.mem_set_unit]
  exact Iff.rfl

/-- Row `r` of the result is written by point `r / 5000`: the ten blocks fill the array. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := blockIndex3 t
  have e4' : win3_2.index t (0 : Fin 2) = (i 0).val / 5000 := e4
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the kernel's ten points the result array holds the whole-array function of the operands' arrays as the
    kernel found them. -/
theorem result3 (c : Dev nD) : (dat3 V c).arrAt 2 cfg3.N = rowBias (V c main_v107) (V c main_v108) :=
  (dat3 V c).arrAt_eq_of_cover 2 _ (fun t _ => flushed3 V c t) (covered3)

/-! ## Kernel 4 (the head): `main_v128` from `main_v126`, `main_arg7` and `main_v127` -/

/-- The head has one grid point and every window is its whole array. -/
theorem blockIndex4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- What the one grid point writes back is the whole-array function. -/
theorem flushed4 (c : Dev nD) (t : Fin cfg4.N) :
    (dat4 V c).flushed 3 t = ((cfg4.win 3).blk t).view.read (Elt Ideal)
      (rowBias (matProd (V c main_v126) (V c main_arg7)) (V c main_v127)) := by
  show (cfg4.win 3).cut (grid4.coords t) ((dat4 V c).after 3 t) = _
  rw [after4_3]
  unfold out4_3
  rw [View.canon_unit_zero zeros2]
  simp only [View.ld_unit_zero (S := S128x128) zeros2, View.ld_unit_zero (S := S128x2) zeros2, View.ld_unit_zero (S := S1x2) zeros2]
  rw [k4_pay1_eq]
  obtain ⟨e0, e1, e2, e3, e4, e5, e6, e7⟩ := blockIndex4 t
  funext j
  show (rowBias (matProd (iblk4 V c 0 t) (iblk4 V c 1 t)) (iblk4 V c 2 t)) j
    = (rowBias (matProd (V c main_v126) (V c main_arg7)) (V c main_v127)) (((cfg4.win 3).blk t).view.emb j)
  have hj0 : (j 0).val < 128 := (j 0).isLt
  have hj1 : (j 1).val < 2 := (j 1).isLt
  refine rowBias_of_entries (R := 128) (r := 128) (K := 2) _ _ _ _ j _ ?_ ?_
  · refine matProd_of_rows (R := 128) (r := 128) (K := 128) (N := 2) (n := 2) _ _ _ _ j _ (fun q => ?_) (fun q => ?_)
    · show V c main_v126 (((cfg4.win 0).blk t).view.emb (ix2 (j 0) q)) = V c main_v126 (ix2 ((((cfg4.win 3).blk t).view.emb j) 0) q)
      refine congrArg (V c main_v126) (funext fun a => Fin.ext ?_)
      match a with
      | ⟨0, _⟩ => show win4_0.index t (0 : Fin 2) * 128 + 1 * (j 0).val = win4_3.index t (0 : Fin 2) * 128 + 1 * (j 0).val; omega
      | ⟨1, _⟩ => show win4_0.index t (1 : Fin 2) * 128 + 1 * q.val = q.val; omega
    · show V c main_arg7 (((cfg4.win 1).blk t).view.emb (ix2 q (j 1))) = V c main_arg7 (ix2 q ((((cfg4.win 3).blk t).view.emb j) 1))
      refine congrArg (V c main_arg7) (funext fun a => Fin.ext ?_)
      match a with
      | ⟨0, _⟩ => show win4_1.index t (0 : Fin 2) * 128 + 1 * q.val = q.val; omega
      | ⟨1, _⟩ => show win4_1.index t (1 : Fin 2) * 2 + 1 * (j 1).val = win4_3.index t (1 : Fin 2) * 2 + 1 * (j 1).val; omega
  · show V c main_v127 (((cfg4.win 2).blk t).view.emb (ix2 (0 : Fin 1) (j 1))) = V c main_v127 (ix2 (0 : Fin 1) ((((cfg4.win 3).blk t).view.emb j) 1))
    refine congrArg (V c main_v127) (funext fun a => Fin.ext ?_)
    match a with
    | ⟨0, _⟩ => show win4_2.index t (0 : Fin 2) * 1 + 1 * 0 = 0; omega
    | ⟨1, _⟩ => show win4_2.index t (1 : Fin 2) * 2 + 1 * (j 1).val = win4_3.index t (1 : Fin 2) * 2 + 1 * (j 1).val; omega

theorem mem_block4 (t : Fin cfg4.N) (i : S128x2.Idx) :
    i ∈ ((cfg4.win 3).blk t).view.set ↔ ∀ a : Fin 2, win4_3.index t a * S128x2.size a ≤ (i a).val ∧ (i a).val < win4_3.index t a * S128x2.size a + S128x2.size a := by
  show i ∈ ((View.whole main_v128).slice (win4_3.rect t)).set ↔ _
  rw [View.set_slice_whole, Rect.mem_set_unit]
  exact Iff.rfl

/-- The one block is the whole result. -/
theorem covered4 (i : S128x2.Idx) :
    ∃ t : Fin cfg4.N, (cfg4.win 3).flush t = true ∧ i ∈ ((cfg4.win 3).blk t).view.set := by
  have hi0 : (i 0).val < 128 := (i 0).isLt
  have hi1 : (i 1).val < 2 := (i 1).isLt
  have hN : cfg4.N = 1 := N_4
  let t : Fin cfg4.N := ⟨0, by rw [hN]; omega⟩
  obtain ⟨e0, e1, e2, e3, e4, e5, e6, e7⟩ := blockIndex4 t
  refine ⟨t, flush4_3 t, ?_⟩
  rw [mem_block4]
  intro a
  match a with
  | ⟨0, _⟩ => show win4_3.index t (0 : Fin 2) * 128 ≤ (i 0).val ∧ (i 0).val < win4_3.index t (0 : Fin 2) * 128 + 128; omega
  | ⟨1, _⟩ => show win4_3.index t (1 : Fin 2) * 2 ≤ (i 1).val ∧ (i 1).val < win4_3.index t (1 : Fin 2) * 2 + 2; omega

/-- After the head's one point the result array holds the product plus the bias row. -/
theorem result4 (c : Dev nD) : (dat4 V c).arrAt 3 cfg4.N
    = rowBias (matProd (V c main_v126) (V c main_arg7)) (V c main_v127) :=
  (dat4 V c).arrAt_eq_of_cover 3 _ (fun t _ => flushed4 V c t) (covered4)

end Cert.GraphConv.KernelRegions

end
-- ==== Proof.KernelRun.lean ====
/-
  The kernel program's run, with its result named.

  The program is five dense kernels among four stretches of host operations. The buffer contents at each boundary
  are a fold from the launch memory: a stretch of host operations rewrites the buffers it writes, a kernel leaves
  its result array at what its grid points wrote back and every other buffer as it found it. Reading the fold
  forwards — the edge rows, X W₁, its neighbourhood sum and bias row, the hidden layer, h₁ W₂, its neighbourhood sum
  and bias row, the second layer, the pooled features and the head's bias row, the head — the result buffer ends at
  `network` of the argument arrays; an argument is written by nothing, so wherever it is read it still holds its
  launch contents.
-/
import proofs.«171469_j11089605559135_1_alg».proof.Proof.Gen.KernelIdeal.Frame
import proofs.«171469_j11089605559135_1_alg».proof.Proof.KernelHost
import proofs.«171469_j11089605559135_1_alg».proof.Proof.KernelRegions

set_option maxRecDepth 16384

noncomputable section

namespace Cert.GraphConv.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Linear Cert.GraphConv Cert.GraphConv.KernelHost Cert.GraphConv.KernelRegions

local notation "𝕄" => MT nD τ sig Unit (Elt Ideal) ℕ (UR sig nD τ) ℕ

variable (m : (ℓ : Loc nD τ sig) → Buf (Elt Ideal) ℓ) (ρ : Dev nD → PrngReg)

/-! ## After stretch 0 (kernel 0's entry) -/

theorem W1_v1 (c : Dev nD) : W1 m ρ c (Proc.devRef .tc main_v1) = sources (F := Ideal) (m ((c : Thread nD τ).loc main_arg1)) :=
  hostOps0_sources (W0 m ρ c)
theorem W1_v3 (c : Dev nD) : W1 m ρ c (Proc.devRef .tc main_v3) = targets (F := Ideal) (m ((c : Thread nD τ).loc main_arg1)) :=
  hostOps0_targets (W0 m ρ c)
theorem W1_arg0 (c : Dev nD) : W1 m ρ c (Proc.devRef .tc main_arg0) = m ((c : Thread nD τ).loc main_arg0) :=
  hostOps0_keeps_main_arg0 (W0 m ρ c)
theorem W1_arg2 (c : Dev nD) : W1 m ρ c (Proc.devRef .tc main_arg2) = m ((c : Thread nD τ).loc main_arg2) :=
  hostOps0_keeps_main_arg2 (W0 m ρ c)
theorem W1_arg3 (c : Dev nD) : W1 m ρ c (Proc.devRef .tc main_arg3) = m ((c : Thread nD τ).loc main_arg3) :=
  hostOps0_keeps_main_arg3 (W0 m ρ c)
theorem W1_arg4 (c : Dev nD) : W1 m ρ c (Proc.devRef .tc main_arg4) = m ((c : Thread nD τ).loc main_arg4) :=
  hostOps0_keeps_main_arg4 (W0 m ρ c)
theorem W1_arg5 (c : Dev nD) : W1 m ρ c (Proc.devRef .tc main_arg5) = m ((c : Thread nD τ).loc main_arg5) :=
  hostOps0_keeps_main_arg5 (W0 m ρ c)
theorem W1_arg6 (c : Dev nD) : W1 m ρ c (Proc.devRef .tc main_arg6) = m ((c : Thread nD τ).loc main_arg6) :=
  hostOps0_keeps_main_arg6 (W0 m ρ c)
theorem W1_arg7 (c : Dev nD) : W1 m ρ c (Proc.devRef .tc main_arg7) = m ((c : Thread nD τ).loc main_arg7) :=
  hostOps0_keeps_main_arg7 (W0 m ρ c)
theorem W1_arg8 (c : Dev nD) : W1 m ρ c (Proc.devRef .tc main_arg8) = m ((c : Thread nD τ).loc main_arg8) :=
  hostOps0_keeps_main_arg8 (W0 m ρ c)

/-! ## After kernel 0: X W₁ -/

theorem W2_v4 (c : Dev nD) : W2 m ρ c (Proc.devRef .tc main_v4) = matProd (m ((c : Thread nD τ).loc main_arg0)) (m ((c : Thread nD τ).loc main_arg3)) := by
  have h := (W2_arr m ρ c 2).trans (result0 (V1 m ρ) c)
  rw [show V1 m ρ c main_arg0 = m ((c : Thread nD τ).loc main_arg0) from W1_arg0 m ρ c,
    show V1 m ρ c main_arg3 = m ((c : Thread nD τ).loc main_arg3) from W1_arg3 m ρ c] at h
  exact h
theorem W2_v1 (c : Dev nD) : W2 m ρ c (Proc.devRef .tc main_v1) = sources (F := Ideal) (m ((c : Thread nD τ).loc main_arg1)) :=
  (W2_of_ne m ρ c main_v1 (by decide)).trans (W1_v1 m ρ c)
theorem W2_v3 (c : Dev nD) : W2 m ρ c (Proc.devRef .tc main_v3) = targets (F := Ideal) (m ((c : Thread nD τ).loc main_arg1)) :=
  (W2_of_ne m ρ c main_v3 (by decide)).trans (W1_v3 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## After stretch 1 (kernel 1's entry): the neighbourhood sum of X W₁, and b₁ as a row -/

theorem W3_v54 (c : Dev nD) : W3 m ρ c (Proc.devRef .tc main_v54) = neighbourSum (F := Ideal) (matProd (m ((c : Thread nD τ).loc main_arg0)) (m ((c : Thread nD τ).loc main_arg3))) (sources (F := Ideal) (m ((c : Thread nD τ).loc main_arg1))) (targets (F := Ideal) (m ((c : Thread nD τ).loc main_arg1))) := by
  have h := hostOps1_neighbourSum (W2 m ρ c)
  rw [W2_v4 m ρ c, W2_v1 m ρ c, W2_v3 m ρ c] at h
  exact h
theorem W3_v55 (c : Dev nD) : W3 m ρ c (Proc.devRef .tc main_v55) = shapeCast S1x128 (m ((c : Thread nD τ).loc main_arg4)) shapeCasts_S128_S1x128 := by
  have h := hostOps1_biasRow (W2 m ρ c)
  rw [W2_arg4 m ρ c] at h
  exact h
theorem W3_v1 (c : Dev nD) : W3 m ρ c (Proc.devRef .tc main_v1) = sources (F := Ideal) (m ((c : Thread nD τ).loc main_arg1)) :=
  (hostOps1_keeps_main_v1 (W2 m ρ c)).trans (W2_v1 m ρ c)
theorem W3_v3 (c : Dev nD) : W3 m ρ c (Proc.devRef .tc main_v3) = targets (F := Ideal) (m ((c : Thread nD τ).loc main_arg1)) :=
  (hostOps1_keeps_main_v3 (W2 m ρ c)).trans (W2_v3 m ρ c)
theorem W3_arg2 (c : Dev nD) : W3 m ρ c (Proc.devRef .tc main_arg2) = m ((c : Thread nD τ).loc main_arg2) :=
  (hostOps1_keeps_main_arg2 (W2 m ρ c)).trans (W2_arg2 m ρ c)
theorem W3_arg5 (c : Dev nD) : W3 m ρ c (Proc.devRef .tc main_arg5) = m ((c : Thread nD τ).loc main_arg5) :=
  (hostOps1_keeps_main_arg5 (W2 m ρ c)).trans (W2_arg5 m ρ c)
theorem W3_arg6 (c : Dev nD) : W3 m ρ c (Proc.devRef .tc main_arg6) = m ((c : Thread nD τ).loc main_arg6) :=
  (hostOps1_keeps_main_arg6 (W2 m ρ c)).trans (W2_arg6 m ρ c)
theorem W3_arg7 (c : Dev nD) : W3 m ρ c (Proc.devRef .tc main_arg7) = m ((c : Thread nD τ).loc main_arg7) :=
  (hostOps1_keeps_main_arg7 (W2 m ρ c)).trans (W2_arg7 m ρ c)
theorem W3_arg8 (c : Dev nD) : W3 m ρ c (Proc.devRef .tc main_arg8) = m ((c : Thread nD τ).loc main_arg8) :=
  (hostOps1_keeps_main_arg8 (W2 m ρ c)).trans (W2_arg8 m ρ c)

/-! ## After kernel 1: the hidden layer -/

theorem W4_v56 (c : Dev nD) : W4 m ρ c (Proc.devRef .tc main_v56) = hidden (m ((c : Thread nD τ).loc main_arg0)) (m ((c : Thread nD τ).loc main_arg1)) (m ((c : Thread nD τ).loc main_arg3)) (m ((c : Thread nD τ).loc main_arg4)) := by
  have h := (W4_arr m ρ c 2).trans (result1 (V3 m ρ) c)
  rw [show V3 m ρ c main_v54 = neighbourSum (F := Ideal) (matProd (m ((c : Thread nD τ).loc main_arg0)) (m ((c : Thread nD τ).loc main_arg3))) (sources (F := Ideal) (m ((c : Thread nD τ).loc main_arg1))) (targets (F := Ideal) (m ((c : Thread nD τ).loc main_arg1))) from W3_v54 m ρ c,
    show V3 m ρ c main_v55 = shapeCast S1x128 (m ((c : Thread nD τ).loc main_arg4)) shapeCasts_S128_S1x128 from W3_v55 m ρ c] at h
  exact h
theorem W4_v1 (c : Dev nD) : W4 m ρ c (Proc.devRef .tc main_v1) = sources (F := Ideal) (m ((c : Thread nD τ).loc main_arg1)) :=
  (W4_of_ne m ρ c main_v1 (by decide)).trans (W3_v1 m ρ c)
theorem W4_v3 (c : Dev nD) : W4 m ρ c (Proc.devRef .tc main_v3) = targets (F := Ideal) (m ((c : Thread nD τ).loc main_arg1)) :=
  (W4_of_ne m ρ c main_v3 (by decide)).trans (W3_v3 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)

/-! ## After kernel 2: h₁ W₂ -/

theorem W5_v57 (c : Dev nD) : W5 m ρ c (Proc.devRef .tc main_v57) = matProd (hidden (m ((c : Thread nD τ).loc main_arg0)) (m ((c : Thread nD τ).loc main_arg1)) (m ((c : Thread nD τ).loc main_arg3)) (m ((c : Thread nD τ).loc main_arg4))) (m ((c : Thread nD τ).loc main_arg5)) := by
  have h := (W5_arr m ρ c 2).trans (result2 (V4 m ρ) c)
  rw [show V4 m ρ c main_v56 = hidden (m ((c : Thread nD τ).loc main_arg0)) (m ((c : Thread nD τ).loc main_arg1)) (m ((c : Thread nD τ).loc main_arg3)) (m ((c : Thread nD τ).loc main_arg4)) from W4_v56 m ρ c,
    show V4 m ρ c main_arg5 = m ((c : Thread nD τ).loc main_arg5) from W4_arg5 m ρ c] at h
  exact h
theorem W5_v1 (c : Dev nD) : W5 m ρ c (Proc.devRef .tc main_v1) = sources (F := Ideal) (m ((c : Thread nD τ).loc main_arg1)) :=
  (W5_of_ne m ρ c main_v1 (by decide)).trans (W4_v1 m ρ c)
theorem W5_v3 (c : Dev nD) : W5 m ρ c (Proc.devRef .tc main_v3) = targets (F := Ideal) (m ((c : Thread nD τ).loc main_arg1)) :=
  (W5_of_ne m ρ c main_v3 (by decide)).trans (W4_v3 m ρ c)
theorem W5_arg2 (c : Dev nD) : W5 m ρ c (Proc.devRef .tc main_arg2) = m ((c : Thread nD τ).loc main_arg2) :=
  (W5_of_ne m ρ c main_arg2 (by decide)).trans (W4_arg2 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W5_arg7 (c : Dev nD) : W5 m ρ c (Proc.devRef .tc main_arg7) = m ((c : Thread nD τ).loc main_arg7) :=
  (W5_of_ne m ρ c main_arg7 (by decide)).trans (W4_arg7 m ρ c)
theorem W5_arg8 (c : Dev nD) : W5 m ρ c (Proc.devRef .tc main_arg8) = m ((c : Thread nD τ).loc main_arg8) :=
  (W5_of_ne m ρ c main_arg8 (by decide)).trans (W4_arg8 m ρ c)

/-! ## After stretch 3 (kernel 3's entry): the neighbourhood sum of h₁ W₂, and b₂ as a row -/

theorem W6_v107 (c : Dev nD) : W6 m ρ c (Proc.devRef .tc main_v107) = neighbourSum (F := Ideal) (matProd (hidden (m ((c : Thread nD τ).loc main_arg0)) (m ((c : Thread nD τ).loc main_arg1)) (m ((c : Thread nD τ).loc main_arg3)) (m ((c : Thread nD τ).loc main_arg4))) (m ((c : Thread nD τ).loc main_arg5))) (sources (F := Ideal) (m ((c : Thread nD τ).loc main_arg1))) (targets (F := Ideal) (m ((c : Thread nD τ).loc main_arg1))) := by
  have h := hostOps3_neighbourSum (W5 m ρ c)
  rw [W5_v57 m ρ c, W5_v1 m ρ c, W5_v3 m ρ c] at h
  exact h
theorem W6_v108 (c : Dev nD) : W6 m ρ c (Proc.devRef .tc main_v108) = shapeCast S1x128 (m ((c : Thread nD τ).loc main_arg6)) shapeCasts_S128_S1x128 := by
  have h := hostOps3_biasRow (W5 m ρ c)
  rw [W5_arg6 m ρ c] at h
  exact h
theorem W6_arg2 (c : Dev nD) : W6 m ρ c (Proc.devRef .tc main_arg2) = m ((c : Thread nD τ).loc main_arg2) :=
  (hostOps3_keeps_main_arg2 (W5 m ρ c)).trans (W5_arg2 m ρ c)
theorem W6_arg7 (c : Dev nD) : W6 m ρ c (Proc.devRef .tc main_arg7) = m ((c : Thread nD τ).loc main_arg7) :=
  (hostOps3_keeps_main_arg7 (W5 m ρ c)).trans (W5_arg7 m ρ c)
theorem W6_arg8 (c : Dev nD) : W6 m ρ c (Proc.devRef .tc main_arg8) = m ((c : Thread nD τ).loc main_arg8) :=
  (hostOps3_keeps_main_arg8 (W5 m ρ c)).trans (W5_arg8 m ρ c)

/-! ## After kernel 3: the second layer -/

theorem W7_v109 (c : Dev nD) : W7 m ρ c (Proc.devRef .tc main_v109) = second (hidden (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6)) := by
  have h := (W7_arr m ρ c 2).trans (result3 (V6 m ρ) c)
  rw [show V6 m ρ c main_v107 = neighbourSum (F := Ideal) (matProd (hidden (m ((c : Thread nD τ).loc main_arg0)) (m ((c : Thread nD τ).loc main_arg1)) (m ((c : Thread nD τ).loc main_arg3)) (m ((c : Thread nD τ).loc main_arg4))) (m ((c : Thread nD τ).loc main_arg5))) (sources (F := Ideal) (m ((c : Thread nD τ).loc main_arg1))) (targets (F := Ideal) (m ((c : Thread nD τ).loc main_arg1))) from W6_v107 m ρ c,
    show V6 m ρ c main_v108 = shapeCast S1x128 (m ((c : Thread nD τ).loc main_arg6)) shapeCasts_S128_S1x128 from W6_v108 m ρ c] at h
  exact h
theorem W7_arg2 (c : Dev nD) : W7 m ρ c (Proc.devRef .tc main_arg2) = m ((c : Thread nD τ).loc main_arg2) :=
  (W7_of_ne m ρ c main_arg2 (by decide)).trans (W6_arg2 m ρ c)
theorem W7_arg7 (c : Dev nD) : W7 m ρ c (Proc.devRef .tc main_arg7) = m ((c : Thread nD τ).loc main_arg7) :=
  (W7_of_ne m ρ c main_arg7 (by decide)).trans (W6_arg7 m ρ c)
theorem W7_arg8 (c : Dev nD) : W7 m ρ c (Proc.devRef .tc main_arg8) = m ((c : Thread nD τ).loc main_arg8) :=
  (W7_of_ne m ρ c main_arg8 (by decide)).trans (W6_arg8 m ρ c)

/-! ## After stretch 4 (the head's entry): the pooled features, and the head's bias as a row -/

theorem W8_v126 (c : Dev nD) : W8 m ρ c (Proc.devRef .tc main_v126) = meanPool (F := Ideal) (second (hidden (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg2)) := by
  have h := hostOps4_meanPool (W7 m ρ c)
  rw [W7_v109 m ρ c, W7_arg2 m ρ c] at h
  exact h
theorem W8_v127 (c : Dev nD) : W8 m ρ c (Proc.devRef .tc main_v127) = shapeCast S1x2 (m ((c : Thread nD τ).loc main_arg8)) shapeCasts_S2_S1x2 := by
  have h := hostOps4_biasRow (W7 m ρ c)
  rw [W7_arg8 m ρ c] at h
  exact h
theorem W8_arg7 (c : Dev nD) : W8 m ρ c (Proc.devRef .tc main_arg7) = m ((c : Thread nD τ).loc main_arg7) :=
  (hostOps4_keeps_main_arg7 (W7 m ρ c)).trans (W7_arg7 m ρ c)

/-! ## After the head: the network's result -/

theorem W9_v128 (c : Dev nD) : W9 m ρ c (Proc.devRef .tc main_v128) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W9_arr m ρ c 3).trans (result4 (V8 m ρ) c)
  rw [show V8 m ρ c main_v126 = meanPool (F := Ideal) (second (hidden (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg2)) from W8_v126 m ρ c,
    show V8 m ρ c main_arg7 = m ((c : Thread nD τ).loc main_arg7) from W8_arg7 m ρ c,
    show V8 m ρ c main_v127 = shapeCast S1x2 (m ((c : Thread nD τ).loc main_arg8)) shapeCasts_S2_S1x2 from W8_v127 m ρ c] at h
  exact h

/-! ## The run -/

set_option backward.isDefEq.respectTransparency.types false in
/-- Every weakly fair execution of the kernel program from a memory `m` terminates without a fault, with the result
    buffer at `network` of the argument arrays and the arguments as launched: the library's theorem for a program of
    several kernels over the program's segments, the last boundary's contents read against the final state. -/
theorem run : θ_run (defs (F := Ideal)) (onTc (τ := τ) (main (F := Ideal))) ⟨m, fun _ => 0, ρ⟩ (fun r => ∀ c : Dev nD,
      r.2.mem ((c.tc : Thread nD τ).loc main_v128) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v128 (by decide))).trans (W9_v128 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.GraphConv.KernelRun

end
-- ==== Proof.ReferenceRun.lean ====
/-
  The reference program's run, with its result named.

  The reference is one line of host operations. It is cut where the network's stages end: the edge list's two rows;
  X W₁ and its neighbourhood sum; the first bias and `relu`; the second layer `Â (h₁ W₂) + b₂`; the pooling and the head.
  Each piece is read from ARBITRARY starting contents `V`: the buffer the next piece reads holds the network's function
  of what `V` holds in the buffers the piece reads — the host's `dot_general` is the plain product `matProd`, its two
  `broadcast_in_dim`s of a bias vector added to every row are `rowBias` (with the maximum against the zero splat,
  `rowBiasMax`), and the gathers and scatter-adds between them are, operation for operation, `neighbourSum` and
  `meanPool` — and a buffer the piece does not write keeps its contents. Composed, the result buffer ends at `network`
  of the argument arrays.
-/
import proofs.«171469_j11089605559135_1_alg».proof.Proof.Gen.ReferenceIdeal.Run
import proofs.«171469_j11089605559135_1_alg».proof.Proof.Spec
import proofs.«171469_j11089605559135_1_alg».proof.Proof.LibDotLists

set_option maxRecDepth 16384

noncomputable section

namespace Cert.GraphConv.Reference

open Cert.ReferenceIdeal Cert.ReferenceIdeal.Gen Cert.ReferenceIdeal.Value
open Idealize.ShloMosaic Idealize.ShloMosaic.TcCoe Idealize.SL.Sem Idealize.ShloMosaic.StableHlo
open Cert.Linear Cert.GraphConv

variable {F : FTy → Type} [FloatOps F]

/-- The contents after two lines of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The host's product with its default schedule is the plain product. -/
theorem hostDot_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    Host.dotGeneral d prec X W = matProd X W :=
  dotGeneral_eq h prec .single X W

/-! ## The pieces -/

/-- The edge list's two rows. -/
abbrev edgeRows : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

set_option maxHeartbeats 40000000 in
/-- `X W₁` and its neighbourhood sum. -/
abbrev sum1 : List (HloOp τ sig (Elt F)) :=
  [ binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v16 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    nullary main_c_7 (constantI S_ 32 0#32),
    unary main_c_7 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v4 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v31 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x128 ![0, 1] bcast_S800000x1_S800000x128_0_1 : (⟨S800000x1, .f32⟩ : BufTy).Contents (Elt F) → (⟨S800000x128, .f32⟩ : BufTy).Contents (Elt F)),
    binary main_v38 main_v40 main_v41 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    nullary main_c_10 (constantI S_ 32 0#32),
    unary main_c_10 main_v43 (broadcastInDim S800000 ![] bcast_S_S800000 : (⟨S_, .i32⟩ : BufTy).Contents (Elt F) → (⟨S800000, .i32⟩ : BufTy).Contents (Elt F)),
    binary main_v3 main_v43 main_v44 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v45 (broadcastInDim S800000 ![] bcast_S_S800000 : (⟨S_, .i32⟩ : BufTy).Contents (Elt F) → (⟨S800000, .i32⟩ : BufTy).Contents (Elt F)),
    binary main_v3 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_v3 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    ternary main_v42 main_v48 main_v41 main_v49 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v16 main_v16 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x128 ![0, 1] bcast_S50000x1_S50000x128_0_1 : (⟨S50000x1, .f32⟩ : BufTy).Contents (Elt F) → (⟨S50000x128, .f32⟩ : BufTy).Contents (Elt F)),
    binary main_v4 main_v52 main_v53 (mulf : (⟨S50000x128, .f32⟩ : BufTy).Contents (Elt F) → (⟨S50000x128, .f32⟩ : BufTy).Contents (Elt F) → (⟨S50000x128, .f32⟩ : BufTy).Contents (Elt F)),
    binary main_v49 main_v53 main_v54 (addf : (⟨S50000x128, .f32⟩ : BufTy).Contents (Elt F) → (⟨S50000x128, .f32⟩ : BufTy).Contents (Elt F) → (⟨S50000x128, .f32⟩ : BufTy).Contents (Elt F)) ]

/-- The first bias added to every row, then `relu`. -/
abbrev relu1 : List (HloOp τ sig (Elt F)) :=
  [ unary main_arg4 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v57) (TRef.of (T := ⟨S50000x128, .f32⟩) main_call0_v0) (TRef.of (T := ⟨S50000x128, .f32⟩) main_v58) maximumf ]

set_option maxHeartbeats 40000000 in
/-- The second layer: from `h₁ W₂` to the bias add. -/
abbrev layer2 : List (HloOp τ sig (Elt F)) :=
  [ binary main_v58 main_arg5 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_12 (constant S_ .f32 0x00000000#32),
    unary main_cst_12 main_v60 (broadcastInDim S50000 ![] bcast_S_S50000 : (⟨S_, .f32⟩ : BufTy).Contents (Elt F) → (⟨S50000, .f32⟩ : BufTy).Contents (Elt F)),
    nullary main_c_13 (constantI S_ 32 0#32),
    unary main_c_13 main_v61 (broadcastInDim S800000 ![] bcast_S_S800000 : (⟨S_, .i32⟩ : BufTy).Contents (Elt F) → (⟨S800000, .i32⟩ : BufTy).Contents (Elt F)),
    binary main_v3 main_v61 main_v62 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v63 (broadcastInDim S800000 ![] bcast_S_S800000 : (⟨S_, .i32⟩ : BufTy).Contents (Elt F) → (⟨S800000, .i32⟩ : BufTy).Contents (Elt F)),
    binary main_v3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    nullary main_cst_15 (constant S_ .f32 0x3F800000#32),
    unary main_cst_15 main_v67 (broadcastInDim S800000 ![] bcast_S_S800000 : (⟨S_, .f32⟩ : BufTy).Contents (Elt F) → (⟨S800000, .f32⟩ : BufTy).Contents (Elt F)),
    ternary main_v60 main_v66 main_v67 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x3F800000#32),
    unary main_cst_16 main_v69 (broadcastInDim S50000 ![] bcast_S_S50000 : (⟨S_, .f32⟩ : BufTy).Contents (Elt F) → (⟨S50000, .f32⟩ : BufTy).Contents (Elt F)),
    binary main_v68 main_v69 main_v70 (addf : (⟨S50000, .f32⟩ : BufTy).Contents (Elt F) → (⟨S50000, .f32⟩ : BufTy).Contents (Elt F) → (⟨S50000, .f32⟩ : BufTy).Contents (Elt F)),
    unary main_v70 main_v71 (Host.rsqrt : (⟨S50000, .f32⟩ : BufTy).Contents (Elt F) → (⟨S50000, .f32⟩ : BufTy).Contents (Elt F)),
    nullary main_c_17 (constantI S_ 32 0#32),
    unary main_c_17 main_v72 (broadcastInDim S800000 ![] bcast_S_S800000 : (⟨S_, .i32⟩ : BufTy).Contents (Elt F) → (⟨S800000, .i32⟩ : BufTy).Contents (Elt F)),
    binary main_v1 main_v72 main_v73 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v74 (broadcastInDim S800000 ![] bcast_S_S800000 : (⟨S_, .i32⟩ : BufTy).Contents (Elt F) → (⟨S800000, .i32⟩ : BufTy).Contents (Elt F)),
    binary main_v1 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v71 main_v77 main_v78 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_19 (constantI S_ 32 0#32),
    unary main_c_19 main_v79 (broadcastInDim S800000 ![] bcast_S_S800000 : (⟨S_, .i32⟩ : BufTy).Contents (Elt F) → (⟨S800000, .i32⟩ : BufTy).Contents (Elt F)),
    binary main_v3 main_v79 main_v80 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v81 (broadcastInDim S800000 ![] bcast_S_S800000 : (⟨S_, .i32⟩ : BufTy).Contents (Elt F) → (⟨S800000, .i32⟩ : BufTy).Contents (Elt F)),
    binary main_v3 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v3 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v71 main_v84 main_v85 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v78 main_v85 main_v86 (mulf : (⟨S800000, .f32⟩ : BufTy).Contents (Elt F) → (⟨S800000, .f32⟩ : BufTy).Contents (Elt F) → (⟨S800000, .f32⟩ : BufTy).Contents (Elt F)),
    nullary main_c_21 (constantI S_ 32 0#32),
    unary main_c_21 main_v87 (broadcastInDim S800000 ![] bcast_S_S800000 : (⟨S_, .i32⟩ : BufTy).Contents (Elt F) → (⟨S800000, .i32⟩ : BufTy).Contents (Elt F)),
    binary main_v1 main_v87 main_v88 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v89 (broadcastInDim S800000 ![] bcast_S_S800000 : (⟨S_, .i32⟩ : BufTy).Contents (Elt F) → (⟨S800000, .i32⟩ : BufTy).Contents (Elt F)),
    binary main_v1 main_v89 main_v90 (addi : (⟨S800000, .i32⟩ : BufTy).Contents (Elt F) → (⟨S800000, .i32⟩ : BufTy).Contents (Elt F) → (⟨S800000, .i32⟩ : BufTy).Contents (Elt F)),
    ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v91 main_v92 (broadcastInDim S800000x1 ![0] bcast_S800000_S800000x1_0 : (⟨S800000, .i32⟩ : BufTy).Contents (Elt F) → (⟨S800000x1, .i32⟩ : BufTy).Contents (Elt F)),
    binary main_v59 main_v92 main_v93 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v86 main_v94 (broadcastInDim S800000x1 ![0] bcast_S800000_S800000x1_0 : (⟨S800000, .f32⟩ : BufTy).Contents (Elt F) → (⟨S800000x1, .f32⟩ : BufTy).Contents (Elt F)),
    unary main_v94 main_v95 (broadcastInDim S800000x128 ![0, 1] bcast_S800000x1_S800000x128_0_1 : (⟨S800000x1, .f32⟩ : BufTy).Contents (Elt F) → (⟨S800000x128, .f32⟩ : BufTy).Contents (Elt F)),
    binary main_v93 main_v95 main_v96 (mulf : (⟨S800000x128, .f32⟩ : BufTy).Contents (Elt F) → (⟨S800000x128, .f32⟩ : BufTy).Contents (Elt F) → (⟨S800000x128, .f32⟩ : BufTy).Contents (Elt F)),
    nullary main_cst_23 (constant S_ .f32 0x00000000#32),
    unary main_cst_23 main_v97 (broadcastInDim S50000x128 ![] bcast_S_S50000x128 : (⟨S_, .f32⟩ : BufTy).Contents (Elt F) → (⟨S50000x128, .f32⟩ : BufTy).Contents (Elt F)),
    nullary main_c_24 (constantI S_ 32 0#32),
    unary main_c_24 main_v98 (broadcastInDim S800000 ![] bcast_S_S800000 : (⟨S_, .i32⟩ : BufTy).Contents (Elt F) → (⟨S800000, .i32⟩ : BufTy).Contents (Elt F)),
    binary main_v3 main_v98 main_v99 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v100 (broadcastInDim S800000 ![] bcast_S_S800000 : (⟨S_, .i32⟩ : BufTy).Contents (Elt F) → (⟨S800000, .i32⟩ : BufTy).Contents (Elt F)),
    binary main_v3 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v3 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    ternary main_v97 main_v103 main_v96 main_v104 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v71 main_v71 main_v105 (mulf : (⟨S50000, .f32⟩ : BufTy).Contents (Elt F) → (⟨S50000, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    unary main_v106 main_v107 (broadcastInDim S50000x128 ![0, 1] bcast_S50000x1_S50000x128_0_1 : (⟨S50000x1, .f32⟩ : BufTy).Contents (Elt F) → (⟨S50000x128, .f32⟩ : BufTy).Contents (Elt F)),
    binary main_v59 main_v107 main_v108 (mulf : (⟨S50000x128, .f32⟩ : BufTy).Contents (Elt F) → (⟨S50000x128, .f32⟩ : BufTy).Contents (Elt F) → (⟨S50000x128, .f32⟩ : BufTy).Contents (Elt F)),
    binary main_v104 main_v108 main_v109 (addf : (⟨S50000x128, .f32⟩ : BufTy).Contents (Elt F) → (⟨S50000x128, .f32⟩ : BufTy).Contents (Elt F) → (⟨S50000x128, .f32⟩ : BufTy).Contents (Elt F)),
    unary main_arg6 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)) ]

set_option maxHeartbeats 40000000 in
/-- The pooling and the head. -/
abbrev head : List (HloOp τ sig (Elt F)) :=
  [ nullary main_cst_26 (constant S_ .f32 0x00000000#32),
    unary main_cst_26 main_v113 (broadcastInDim S128 ![] bcast_S_S128 : (⟨S_, .f32⟩ : BufTy).Contents (Elt F) → (⟨S128, .f32⟩ : BufTy).Contents (Elt F)),
    nullary main_c_27 (constantI S_ 32 0#32),
    unary main_c_27 main_v114 (broadcastInDim S50000 ![] bcast_S_S50000 : (⟨S_, .i32⟩ : BufTy).Contents (Elt F) → (⟨S50000, .i32⟩ : BufTy).Contents (Elt F)),
    binary main_arg2 main_v114 main_v115 (cmpi .slt : (⟨S50000, .i32⟩ : BufTy).Contents (Elt F) → (⟨S50000, .i32⟩ : BufTy).Contents (Elt F) → (⟨S50000, .i1⟩ : BufTy).Contents (Elt F)),
    nullary main_c_28 (constantI S_ 32 128#32),
    unary main_c_28 main_v116 (broadcastInDim S50000 ![] bcast_S_S50000 : (⟨S_, .i32⟩ : BufTy).Contents (Elt F) → (⟨S50000, .i32⟩ : BufTy).Contents (Elt F)),
    binary main_arg2 main_v116 main_v117 (addi : (⟨S50000, .i32⟩ : BufTy).Contents (Elt F) → (⟨S50000, .i32⟩ : BufTy).Contents (Elt F) → (⟨S50000, .i32⟩ : BufTy).Contents (Elt F)),
    ternary main_v115 main_v117 main_arg2 main_v118 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v118 main_v119 (broadcastInDim S50000x1 ![0] bcast_S50000_S50000x1_0 : (⟨S50000, .i32⟩ : BufTy).Contents (Elt F) → (⟨S50000x1, .i32⟩ : BufTy).Contents (Elt F)),
    nullary main_cst_29 (constant S_ .f32 0x3F800000#32),
    unary main_cst_29 main_v120 (broadcastInDim S50000 ![] bcast_S_S50000 : (⟨S_, .f32⟩ : BufTy).Contents (Elt F) → (⟨S50000, .f32⟩ : BufTy).Contents (Elt F)),
    ternary main_v113 main_v119 main_v120 main_v121 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    nullary main_cst_30 (constant S_ .f32 0x00000000#32),
    unary main_cst_30 main_v122 (broadcastInDim S128x128 ![] bcast_S_S128x128 : (⟨S_, .f32⟩ : BufTy).Contents (Elt F) → (⟨S128x128, .f32⟩ : BufTy).Contents (Elt F)),
    unary main_arg2 main_v123 (broadcastInDim S50000x1 ![0] bcast_S50000_S50000x1_0 : (⟨S50000, .i32⟩ : BufTy).Contents (Elt F) → (⟨S50000x1, .i32⟩ : BufTy).Contents (Elt F)),
    ternary main_v122 main_v123 main_v112 main_v124 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_31 (constant S_ .f32 0x3F800000#32),
    unary main_cst_31 main_v125 (broadcastInDim S128 ![] bcast_S_S128 : (⟨S_, .f32⟩ : BufTy).Contents (Elt F) → (⟨S128, .f32⟩ : BufTy).Contents (Elt F)),
    binary main_v121 main_v125 main_v126 (maximumf : (⟨S128, .f32⟩ : BufTy).Contents (Elt F) → (⟨S128, .f32⟩ : BufTy).Contents (Elt F) → (⟨S128, .f32⟩ : BufTy).Contents (Elt F)),
    unary main_v126 main_v127 (broadcastInDim S128x1 ![0] bcast_S128_S128x1_0 : (⟨S128, .f32⟩ : BufTy).Contents (Elt F) → (⟨S128x1, .f32⟩ : BufTy).Contents (Elt F)),
    unary main_v127 main_v128 (broadcastInDim S128x128 ![0, 1] bcast_S128x1_S128x128_0_1 : (⟨S128x1, .f32⟩ : BufTy).Contents (Elt F) → (⟨S128x128, .f32⟩ : BufTy).Contents (Elt F)),
    binary main_v124 main_v128 main_v129 (Host.divf : (⟨S128x128, .f32⟩ : BufTy).Contents (Elt F) → (⟨S128x128, .f32⟩ : BufTy).Contents (Elt F) → (⟨S128x128, .f32⟩ : BufTy).Contents (Elt F)),
    binary main_v129 main_arg7 main_v130 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    unary main_arg8 main_v131 (broadcastInDim S1x2 ![1] bcast_S2_S1x2_1 : (⟨S2, .f32⟩ : BufTy).Contents (Elt F) → (⟨S1x2, .f32⟩ : BufTy).Contents (Elt F)),
    unary main_v131 main_v132 (broadcastInDim S128x2 ![0, 1] bcast_S1x2_S128x2_0_1 : (⟨S1x2, .f32⟩ : BufTy).Contents (Elt F) → (⟨S128x2, .f32⟩ : BufTy).Contents (Elt F)),
    binary main_v130 main_v132 main_v133 (addf : (⟨S128x2, .f32⟩ : BufTy).Contents (Elt F) → (⟨S128x2, .f32⟩ : BufTy).Contents (Elt F) → (⟨S128x2, .f32⟩ : BufTy).Contents (Elt F)) ]

set_option maxHeartbeats 40000000 in
/-- The program's line of operations is the pieces in order. -/
theorem ops_eq : (ops : List (HloOp τ sig (Elt F))) = edgeRows ++ (sum1 ++ (relu1 ++ (layer2 ++ head))) := rfl

/-! ## What each piece keeps -/

section Keeps

variable (V : Valuation τ sig (Elt F))

theorem edgeRows_keeps_main_arg0 : after (edgeRows (F := F)) V (Proc.devRef .tc main_arg0) = V (Proc.devRef .tc main_arg0) := by
  after_results_simp
theorem edgeRows_keeps_main_arg1 : after (edgeRows (F := F)) V (Proc.devRef .tc main_arg1) = V (Proc.devRef .tc main_arg1) := by
  after_results_simp
theorem edgeRows_keeps_main_arg2 : after (edgeRows (F := F)) V (Proc.devRef .tc main_arg2) = V (Proc.devRef .tc main_arg2) := by
  after_results_simp
theorem edgeRows_keeps_main_arg3 : after (edgeRows (F := F)) V (Proc.devRef .tc main_arg3) = V (Proc.devRef .tc main_arg3) := by
  after_results_simp
theorem edgeRows_keeps_main_arg4 : after (edgeRows (F := F)) V (Proc.devRef .tc main_arg4) = V (Proc.devRef .tc main_arg4) := by
  after_results_simp
theorem edgeRows_keeps_main_arg5 : after (edgeRows (F := F)) V (Proc.devRef .tc main_arg5) = V (Proc.devRef .tc main_arg5) := by
  after_results_simp
theorem edgeRows_keeps_main_arg6 : after (edgeRows (F := F)) V (Proc.devRef .tc main_arg6) = V (Proc.devRef .tc main_arg6) := by
  after_results_simp
theorem edgeRows_keeps_main_arg7 : after (edgeRows (F := F)) V (Proc.devRef .tc main_arg7) = V (Proc.devRef .tc main_arg7) := by
  after_results_simp
theorem edgeRows_keeps_main_arg8 : after (edgeRows (F := F)) V (Proc.devRef .tc main_arg8) = V (Proc.devRef .tc main_arg8) := by
  after_results_simp
set_option maxHeartbeats 4000000 in
theorem sum1_keeps_main_arg0 : after (sum1 (F := F)) V (Proc.devRef .tc main_arg0) = V (Proc.devRef .tc main_arg0) := by
  after_results_simp
set_option maxHeartbeats 4000000 in
theorem sum1_keeps_main_arg1 : after (sum1 (F := F)) V (Proc.devRef .tc main_arg1) = V (Proc.devRef .tc main_arg1) := by
  after_results_simp
set_option maxHeartbeats 4000000 in
theorem sum1_keeps_main_arg2 : after (sum1 (F := F)) V (Proc.devRef .tc main_arg2) = V (Proc.devRef .tc main_arg2) := by
  after_results_simp
set_option maxHeartbeats 4000000 in
theorem sum1_keeps_main_arg3 : after (sum1 (F := F)) V (Proc.devRef .tc main_arg3) = V (Proc.devRef .tc main_arg3) := by
  after_results_simp
set_option maxHeartbeats 4000000 in
theorem sum1_keeps_main_arg4 : after (sum1 (F := F)) V (Proc.devRef .tc main_arg4) = V (Proc.devRef .tc main_arg4) := by
  after_results_simp
set_option maxHeartbeats 4000000 in
theorem sum1_keeps_main_arg5 : after (sum1 (F := F)) V (Proc.devRef .tc main_arg5) = V (Proc.devRef .tc main_arg5) := by
  after_results_simp
set_option maxHeartbeats 4000000 in
theorem sum1_keeps_main_arg6 : after (sum1 (F := F)) V (Proc.devRef .tc main_arg6) = V (Proc.devRef .tc main_arg6) := by
  after_results_simp
set_option maxHeartbeats 4000000 in
theorem sum1_keeps_main_arg7 : after (sum1 (F := F)) V (Proc.devRef .tc main_arg7) = V (Proc.devRef .tc main_arg7) := by
  after_results_simp
set_option maxHeartbeats 4000000 in
theorem sum1_keeps_main_arg8 : after (sum1 (F := F)) V (Proc.devRef .tc main_arg8) = V (Proc.devRef .tc main_arg8) := by
  after_results_simp
set_option maxHeartbeats 4000000 in
theorem sum1_keeps_main_v1 : after (sum1 (F := F)) V (Proc.devRef .tc main_v1) = V (Proc.devRef .tc main_v1) := by
  after_results_simp
set_option maxHeartbeats 4000000 in
theorem sum1_keeps_main_v3 : after (sum1 (F := F)) V (Proc.devRef .tc main_v3) = V (Proc.devRef .tc main_v3) := by
  after_results_simp
theorem relu1_keeps_main_arg0 : after (relu1 (F := F)) V (Proc.devRef .tc main_arg0) = V (Proc.devRef .tc main_arg0) := by
  after_results_simp
theorem relu1_keeps_main_arg1 : after (relu1 (F := F)) V (Proc.devRef .tc main_arg1) = V (Proc.devRef .tc main_arg1) := by
  after_results_simp
theorem relu1_keeps_main_arg2 : after (relu1 (F := F)) V (Proc.devRef .tc main_arg2) = V (Proc.devRef .tc main_arg2) := by
  after_results_simp
theorem relu1_keeps_main_arg3 : after (relu1 (F := F)) V (Proc.devRef .tc main_arg3) = V (Proc.devRef .tc main_arg3) := by
  after_results_simp
theorem relu1_keeps_main_arg4 : after (relu1 (F := F)) V (Proc.devRef .tc main_arg4) = V (Proc.devRef .tc main_arg4) := by
  after_results_simp
theorem relu1_keeps_main_arg5 : after (relu1 (F := F)) V (Proc.devRef .tc main_arg5) = V (Proc.devRef .tc main_arg5) := by
  after_results_simp
theorem relu1_keeps_main_arg6 : after (relu1 (F := F)) V (Proc.devRef .tc main_arg6) = V (Proc.devRef .tc main_arg6) := by
  after_results_simp
theorem relu1_keeps_main_arg7 : after (relu1 (F := F)) V (Proc.devRef .tc main_arg7) = V (Proc.devRef .tc main_arg7) := by
  after_results_simp
theorem relu1_keeps_main_arg8 : after (relu1 (F := F)) V (Proc.devRef .tc main_arg8) = V (Proc.devRef .tc main_arg8) := by
  after_results_simp
theorem relu1_keeps_main_v1 : after (relu1 (F := F)) V (Proc.devRef .tc main_v1) = V (Proc.devRef .tc main_v1) := by
  after_results_simp
theorem relu1_keeps_main_v3 : after (relu1 (F := F)) V (Proc.devRef .tc main_v3) = V (Proc.devRef .tc main_v3) := by
  after_results_simp
set_option maxHeartbeats 4000000 in
theorem layer2_keeps_main_arg0 : after (layer2 (F := F)) V (Proc.devRef .tc main_arg0) = V (Proc.devRef .tc main_arg0) := by
  after_results_simp
set_option maxHeartbeats 4000000 in
theorem layer2_keeps_main_arg1 : after (layer2 (F := F)) V (Proc.devRef .tc main_arg1) = V (Proc.devRef .tc main_arg1) := by
  after_results_simp
set_option maxHeartbeats 4000000 in
theorem layer2_keeps_main_arg2 : after (layer2 (F := F)) V (Proc.devRef .tc main_arg2) = V (Proc.devRef .tc main_arg2) := by
  after_results_simp
set_option maxHeartbeats 4000000 in
theorem layer2_keeps_main_arg3 : after (layer2 (F := F)) V (Proc.devRef .tc main_arg3) = V (Proc.devRef .tc main_arg3) := by
  after_results_simp
set_option maxHeartbeats 4000000 in
theorem layer2_keeps_main_arg4 : after (layer2 (F := F)) V (Proc.devRef .tc main_arg4) = V (Proc.devRef .tc main_arg4) := by
  after_results_simp
set_option maxHeartbeats 4000000 in
theorem layer2_keeps_main_arg5 : after (layer2 (F := F)) V (Proc.devRef .tc main_arg5) = V (Proc.devRef .tc main_arg5) := by
  after_results_simp
set_option maxHeartbeats 4000000 in
theorem layer2_keeps_main_arg6 : after (layer2 (F := F)) V (Proc.devRef .tc main_arg6) = V (Proc.devRef .tc main_arg6) := by
  after_results_simp
set_option maxHeartbeats 4000000 in
theorem layer2_keeps_main_arg7 : after (layer2 (F := F)) V (Proc.devRef .tc main_arg7) = V (Proc.devRef .tc main_arg7) := by
  after_results_simp
set_option maxHeartbeats 4000000 in
theorem layer2_keeps_main_arg8 : after (layer2 (F := F)) V (Proc.devRef .tc main_arg8) = V (Proc.devRef .tc main_arg8) := by
  after_results_simp
theorem head_keeps_main_arg0 : after (head (F := F)) V (Proc.devRef .tc main_arg0) = V (Proc.devRef .tc main_arg0) := by
  after_results_simp
theorem head_keeps_main_arg1 : after (head (F := F)) V (Proc.devRef .tc main_arg1) = V (Proc.devRef .tc main_arg1) := by
  after_results_simp
theorem head_keeps_main_arg2 : after (head (F := F)) V (Proc.devRef .tc main_arg2) = V (Proc.devRef .tc main_arg2) := by
  after_results_simp
theorem head_keeps_main_arg3 : after (head (F := F)) V (Proc.devRef .tc main_arg3) = V (Proc.devRef .tc main_arg3) := by
  after_results_simp
theorem head_keeps_main_arg4 : after (head (F := F)) V (Proc.devRef .tc main_arg4) = V (Proc.devRef .tc main_arg4) := by
  after_results_simp
theorem head_keeps_main_arg5 : after (head (F := F)) V (Proc.devRef .tc main_arg5) = V (Proc.devRef .tc main_arg5) := by
  after_results_simp
theorem head_keeps_main_arg6 : after (head (F := F)) V (Proc.devRef .tc main_arg6) = V (Proc.devRef .tc main_arg6) := by
  after_results_simp
theorem head_keeps_main_arg7 : after (head (F := F)) V (Proc.devRef .tc main_arg7) = V (Proc.devRef .tc main_arg7) := by
  after_results_simp
theorem head_keeps_main_arg8 : after (head (F := F)) V (Proc.devRef .tc main_arg8) = V (Proc.devRef .tc main_arg8) := by
  after_results_simp

/-! ## The edge rows -/

theorem edgeRows_sources : after (edgeRows (F := F)) V (Proc.devRef .tc main_v1) = sources (F := F) (V (Proc.devRef .tc main_arg1)) := by
  after_results
  rfl
theorem edgeRows_targets : after (edgeRows (F := F)) V (Proc.devRef .tc main_v3) = targets (F := F) (V (Proc.devRef .tc main_arg1)) := by
  after_results
  rfl

end Keeps

/-! ## The pieces' results at the ideal values -/

section Ideal

variable (V : Valuation τ sig (Elt Ideal))

set_option maxHeartbeats 4000000 in
/-- The neighbourhood sum of `X W₁`. -/
theorem sum1_neighbourSum : after (sum1 (F := Ideal)) V (Proc.devRef .tc main_v54)
    = neighbourSum (F := Ideal) (matProd (V (Proc.devRef .tc main_arg0)) (V (Proc.devRef .tc main_arg3))) (V (Proc.devRef .tc main_v1)) (V (Proc.devRef .tc main_v3)) := by
  after_results_simp
  rw [hostDot_eq (contracts_of_lists dot_S50000x128_S128x128_S50000x128_1_0_0_1_n_n rfl rfl rfl rfl rfl rfl) none
    (V (Proc.devRef .tc main_arg0)) (V (Proc.devRef .tc main_arg3))]
  rfl

/-- The bias row added to every row, then the maximum with zero. -/
theorem relu1_hidden : after (relu1 (F := Ideal)) V (Proc.devRef .tc main_v58)
    = rowBiasMax (V (Proc.devRef .tc main_v54)) (biasRow128 (V (Proc.devRef .tc main_arg4))) (Ideal.ofBits .f32 0x00000000#32) := by
  after_results_simp
  try simp only [TRef.toBuf, TRef.ofBuf, cast_eq]
  exact rowBiasMax_of_host_ops (R := 50000) (K := 128) (V (Proc.devRef .tc main_v54)) (V (Proc.devRef .tc main_arg4)) 0x00000000#32
    Facts₀.bcast_S128_S1x128_1 Facts₀.bcast_S1x128_S50000x128_0_1 Facts₀.bcast_S_S50000x128 Cert.KernelIdeal.Gen.shapeCasts_S128_S1x128

set_option maxHeartbeats 4000000 in
/-- The second layer of the hidden features, the edge rows and `V`'s arguments. -/
theorem layer2_second : after (layer2 (F := Ideal)) V (Proc.devRef .tc main_v112)
    = rowBias (neighbourSum (F := Ideal) (matProd (V (Proc.devRef .tc main_v58)) (V (Proc.devRef .tc main_arg5))) (V (Proc.devRef .tc main_v1)) (V (Proc.devRef .tc main_v3)))
        (biasRow128 (V (Proc.devRef .tc main_arg6))) := by
  after_results_simp
  rw [rowBias_of_host_ops (R := 50000) (K := 128) _ (V (Proc.devRef .tc main_arg6))
    Facts₀.bcast_S128_S1x128_1 Facts₀.bcast_S1x128_S50000x128_0_1 Cert.KernelIdeal.Gen.shapeCasts_S128_S1x128]
  rw [hostDot_eq (contracts_of_lists dot_S50000x128_S128x128_S50000x128_1_0_0_1_n_n rfl rfl rfl rfl rfl rfl) none
    (V (Proc.devRef .tc main_v58)) (V (Proc.devRef .tc main_arg5))]
  rfl

/-- The head of the pooled second layer. -/
theorem head_result : after (head (F := Ideal)) V (Proc.devRef .tc main_v133)
    = rowBias (matProd (meanPool (F := Ideal) (V (Proc.devRef .tc main_v112)) (V (Proc.devRef .tc main_arg2))) (V (Proc.devRef .tc main_arg7)))
        (biasRow2 (V (Proc.devRef .tc main_arg8))) := by
  after_results_simp
  rw [rowBias_of_host_ops (R := 128) (K := 2) _ (V (Proc.devRef .tc main_arg8))
    Facts₀.bcast_S2_S1x2_1 Facts₀.bcast_S1x2_S128x2_0_1 Cert.KernelIdeal.Gen.shapeCasts_S2_S1x2]
  rw [hostDot_eq (contracts_of_lists dot_S128x128_S128x2_S128x2_1_0_0_1_n_n rfl rfl rfl rfl rfl rfl) none
    _ (V (Proc.devRef .tc main_arg7))]
  rfl

/-! ## The whole line -/

/-- From any starting contents the result buffer ends at `network` of the argument buffers. -/
theorem ops_network : after (ops (F := Ideal)) V (Proc.devRef .tc main_v133)
    = network (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) := by
  rw [ops_eq, after_append, after_append, after_append, after_append]
  rw [head_result, layer2_second, layer2_keeps_main_arg2, layer2_keeps_main_arg7, layer2_keeps_main_arg8]
  rw [relu1_hidden, relu1_keeps_main_arg5, relu1_keeps_main_v1, relu1_keeps_main_v3, relu1_keeps_main_arg6,
    relu1_keeps_main_arg2, relu1_keeps_main_arg7, relu1_keeps_main_arg8]
  rw [sum1_neighbourSum, sum1_keeps_main_arg4, sum1_keeps_main_arg5, sum1_keeps_main_v1, sum1_keeps_main_v3,
    sum1_keeps_main_arg6, sum1_keeps_main_arg2, sum1_keeps_main_arg7, sum1_keeps_main_arg8]
  rw [edgeRows_sources, edgeRows_targets, edgeRows_keeps_main_arg0, edgeRows_keeps_main_arg3, edgeRows_keeps_main_arg4,
    edgeRows_keeps_main_arg5, edgeRows_keeps_main_arg6, edgeRows_keeps_main_arg2, edgeRows_keeps_main_arg7,
    edgeRows_keeps_main_arg8]
  rfl

theorem ops_keeps_main_arg0 : after (ops (F := Ideal)) V (Proc.devRef .tc main_arg0) = V (Proc.devRef .tc main_arg0) := by
  rw [ops_eq, after_append, after_append, after_append, after_append, head_keeps_main_arg0, layer2_keeps_main_arg0,
    relu1_keeps_main_arg0, sum1_keeps_main_arg0, edgeRows_keeps_main_arg0]
theorem ops_keeps_main_arg1 : after (ops (F := Ideal)) V (Proc.devRef .tc main_arg1) = V (Proc.devRef .tc main_arg1) := by
  rw [ops_eq, after_append, after_append, after_append, after_append, head_keeps_main_arg1, layer2_keeps_main_arg1,
    relu1_keeps_main_arg1, sum1_keeps_main_arg1, edgeRows_keeps_main_arg1]
theorem ops_keeps_main_arg2 : after (ops (F := Ideal)) V (Proc.devRef .tc main_arg2) = V (Proc.devRef .tc main_arg2) := by
  rw [ops_eq, after_append, after_append, after_append, after_append, head_keeps_main_arg2, layer2_keeps_main_arg2,
    relu1_keeps_main_arg2, sum1_keeps_main_arg2, edgeRows_keeps_main_arg2]
theorem ops_keeps_main_arg3 : after (ops (F := Ideal)) V (Proc.devRef .tc main_arg3) = V (Proc.devRef .tc main_arg3) := by
  rw [ops_eq, after_append, after_append, after_append, after_append, head_keeps_main_arg3, layer2_keeps_main_arg3,
    relu1_keeps_main_arg3, sum1_keeps_main_arg3, edgeRows_keeps_main_arg3]
theorem ops_keeps_main_arg4 : after (ops (F := Ideal)) V (Proc.devRef .tc main_arg4) = V (Proc.devRef .tc main_arg4) := by
  rw [ops_eq, after_append, after_append, after_append, after_append, head_keeps_main_arg4, layer2_keeps_main_arg4,
    relu1_keeps_main_arg4, sum1_keeps_main_arg4, edgeRows_keeps_main_arg4]
theorem ops_keeps_main_arg5 : after (ops (F := Ideal)) V (Proc.devRef .tc main_arg5) = V (Proc.devRef .tc main_arg5) := by
  rw [ops_eq, after_append, after_append, after_append, after_append, head_keeps_main_arg5, layer2_keeps_main_arg5,
    relu1_keeps_main_arg5, sum1_keeps_main_arg5, edgeRows_keeps_main_arg5]
theorem ops_keeps_main_arg6 : after (ops (F := Ideal)) V (Proc.devRef .tc main_arg6) = V (Proc.devRef .tc main_arg6) := by
  rw [ops_eq, after_append, after_append, after_append, after_append, head_keeps_main_arg6, layer2_keeps_main_arg6,
    relu1_keeps_main_arg6, sum1_keeps_main_arg6, edgeRows_keeps_main_arg6]
theorem ops_keeps_main_arg7 : after (ops (F := Ideal)) V (Proc.devRef .tc main_arg7) = V (Proc.devRef .tc main_arg7) := by
  rw [ops_eq, after_append, after_append, after_append, after_append, head_keeps_main_arg7, layer2_keeps_main_arg7,
    relu1_keeps_main_arg7, sum1_keeps_main_arg7, edgeRows_keeps_main_arg7]
theorem ops_keeps_main_arg8 : after (ops (F := Ideal)) V (Proc.devRef .tc main_arg8) = V (Proc.devRef .tc main_arg8) := by
  rw [ops_eq, after_append, after_append, after_append, after_append, head_keeps_main_arg8, layer2_keeps_main_arg8,
    relu1_keeps_main_arg8, sum1_keeps_main_arg8, edgeRows_keeps_main_arg8]

end Ideal

/-! ## The run -/

/-- Every weakly fair execution of the reference program from a memory `m` terminates without a fault, with the
    result buffer at `network` of the argument arrays and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v133) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v133).trans (ops_network (launchContents m c)),
      (h c main_arg0).trans (ops_keeps_main_arg0 (launchContents m c)),
      (h c main_arg1).trans (ops_keeps_main_arg1 (launchContents m c)),
      (h c main_arg2).trans (ops_keeps_main_arg2 (launchContents m c)),
      (h c main_arg3).trans (ops_keeps_main_arg3 (launchContents m c)),
      (h c main_arg4).trans (ops_keeps_main_arg4 (launchContents m c)),
      (h c main_arg5).trans (ops_keeps_main_arg5 (launchContents m c)),
      (h c main_arg6).trans (ops_keeps_main_arg6 (launchContents m c)),
      (h c main_arg7).trans (ops_keeps_main_arg7 (launchContents m c)),
      (h c main_arg8).trans (ops_keeps_main_arg8 (launchContents m c))⟩)
    (run_seq scopedRefs_eq scopedSems_eq defs main (fun _ => ops) main_eq (fun _ => ops_sub) m ρ)

end Cert.GraphConv.Reference

end
-- ==== Proof.lean ====
/-
  A two-layer graph convolution with mean pooling and a linear head: the kernel program against its reference.

  Both programs compute, from node features X, an edge list, graph ids and the weights,
      h₁ = relu (Â (X W₁) + b₁),   h₂ = Â (h₁ W₂) + b₂,   out = (pool h₂) W_c + b_c,
  with Â the symmetric-normalised neighbourhood sum with self loops and `pool` the per-graph mean. They spell the
  neighbourhood sum and the pooling with the same host operations; they differ in the dense parts: the kernel
  program computes X W₁ and h₁ W₂ 5000 rows at a time through a narrower float format, adds the bias rows (and
  takes the maximum with zero) 5000 rows at a time, and computes the head in one block, where the reference uses
  one whole product and whole-array additions. At the ideal values a change of float format is the identity, a
  product accumulated into zero is the plain sum of products, and a row of a product or of a biased matrix
  depends on that row alone, so both programs end with the one function `network` of the argument arrays
  (Proof/Spec.lean): the kernel program by Proof/KernelRun.lean, the reference by Proof/ReferenceRun.lean. No
  algebraic law is needed to join them, and nothing uses that the inputs are finite.
-/
import proofs.«171469_j11089605559135_1_alg».proof.Defs
import proofs.«171469_j11089605559135_1_alg».proof.Proof.Gen.Kernel
import proofs.«171469_j11089605559135_1_alg».proof.Proof.Gen.Kernel.Frame
import proofs.«171469_j11089605559135_1_alg».proof.Proof.Gen.KernelIdeal
import proofs.«171469_j11089605559135_1_alg».proof.Proof.Gen.KernelIdeal.Frame
import proofs.«171469_j11089605559135_1_alg».proof.Proof.Gen.ReferenceIdeal
import proofs.«171469_j11089605559135_1_alg».proof.Proof.Gen.Pre_finite_inputs
import proofs.«171469_j11089605559135_1_alg».proof.Proof.KernelRun
import proofs.«171469_j11089605559135_1_alg».proof.Proof.ReferenceRun
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.GraphConv.Reference.run m ρ)

/-- From memories agreeing on the arguments both programs end with `network` of those arguments. -/
theorem algebraic : Cert.algebraic_KernelIdeal_ReferenceIdeal := by
  intro m ρ m' ρ' _ hagree
  refine ⟨_, Cert.GraphConv.KernelRun.run m ρ, ?_⟩
  refine (θ_run Cert.ReferenceIdeal.defs _ _).mono (fun _ h c => ⟨(h c).1.trans ?_, (h c).2⟩)
    (Cert.GraphConv.Reference.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
